-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S20000x16 : Shape := ⟨2, ![20000, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 86
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x16, .f32⟩
  | .hbm, ⟨49, _⟩ => ⟨S3300000x1, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x40, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x40, .f32⟩
  | .hbm, ⟨78, _⟩ => ⟨S3300000x40, .f32⟩
  | .hbm, ⟨79, _⟩ => ⟨S3300000x40, .f32⟩
  | .hbm, ⟨80, _⟩ => ⟨S_, .f32⟩
  | .hbm, ⟨81, _⟩ => ⟨S100000x40, .f32⟩
  | .hbm, ⟨82, _⟩ => ⟨S3300000x1, .i32⟩
  | .hbm, ⟨83, _⟩ => ⟨S100000x40, .f32⟩
  | .hbm, ⟨84, _⟩ => ⟨S1x40, .f32⟩
  | .hbm, ⟨85, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S20000x16, .f32⟩
  | .local _ .vmem, ⟨9, _⟩ => ⟨S20000x16, .f32⟩
  | .local _ .vmem, ⟨10, _⟩ => ⟨S5000x16, .f32⟩
  | .local _ .vmem, ⟨11, _⟩ => ⟨S5000x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S100000x16.size a
  hwx1_0 : ∀ i : grid1.Coords, EltTy.bits .f32 = 32 ∨ (Rect.block (s := S100000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x16.size a ≤ S100000x16.size a
  hwx1_2 : ∀ i : grid1.Coords, EltTy.bits .f32 = 32 ∨ (Rect.block (s := S100000x16) S20000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S20000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x512, .f32⟩
  | 1 => ⟨S512x16, .f32⟩
  | 2 => ⟨S16, .f32⟩
  | 3 => ⟨S16x40, .f32⟩
  | 4 => ⟨S40, .f32⟩
  | 5 => ⟨S2x3200000, .i32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S3300000x1, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x40, .f32⟩
  | 72 => ⟨S100000, .i32⟩
  | 73 => ⟨S3300000, .i32⟩
  | 74 => ⟨S3300000, .i32⟩
  | 75 => ⟨S_, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S3300000x1, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x40, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_15 : Ref sig .tc := ⟨.hbm, 91, rfl⟩
abbrev main_v62 : Ref sig .tc := ⟨.hbm, 92, rfl⟩
abbrev main_v63 : Ref sig .tc := ⟨.hbm, 93, rfl⟩
abbrev main_c_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_c_18 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v93 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RunValue.lean ====
/-
  The idealized kernel's run with its result named. The program is four pipelined regions among stretches of host
  operations; the generated frame folds the TensorCore's buffer contents through them, segment by segment, from the
  launch memory to `Gen.W9`, and reads the argument arrays off that last fold. Here the same run is read once more at
  the result buffer: every weakly fair execution ends with the result array at `Gen.W9 m ρ c` of its buffer, and the
  arguments as launched. What that fold holds there is the business of the modules that follow.
-/
import proofs.«120204_j39230231281891_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last fold's
    contents and every argument array as launched. -/
theorem run_final : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Graph.lean ====
/-
  The graph side of both programs, stated once. Both programs compute the same aggregation around their dense stages,
  with the same host operations: from the [2, 3200000] table of directed edges, the list of sources and the list of
  destinations, each followed by the 100000 self loops; each node's degree, the sum of ones scattered at the
  destinations; its inverse square root where the degree is positive and zero elsewhere; for each edge the product of
  that factor at its source and at its destination; and, for a feature matrix, the sum over the edges into each node
  of the edge's factor times the source's feature row (a gather, a product, a scatter-add). A negative index is
  wrapped by the number of nodes before a gather, as the host's indexing does.

  These operations are never opened: each program's run is shown to apply exactly these functions, and the dense
  stages between them are what the two programs do differently.
-/
import proofs.«120204_j39230231281891_1_alg».proof.Proof.Gen.ReferenceIdeal
import Idealize.ShloMosaic.PureOps.Ideal

noncomputable section

namespace Cert.Graph

open Cert.ReferenceIdeal Cert.ReferenceIdeal.Gen Idealize.ShloMosaic

/-- Extended-real arrays and integer arrays of the literal shapes. -/
abbrev FArr (s : Shape) : Type := FVec Ideal s .f32
abbrev IArr (s : Shape) : Type := IVec s 32

/-- Row 0 of the edge table: the sources. -/
def srcRow (e : IArr S2x3200000) : IArr S3200000 :=
  shapeCast _ (extractStridedSlice S1x3200000 ![0, 0] e slices_S2x3200000_S1x3200000_0_0) shapeCasts_S1x3200000_S3200000

/-- Row 1 of the edge table: the destinations. -/
def dstRow (e : IArr S2x3200000) : IArr S3200000 :=
  shapeCast _ (extractStridedSlice S1x3200000 ![1, 0] e slices_S2x3200000_S1x3200000_1_0) shapeCasts_S1x3200000_S3200000

/-- An endpoint list followed by the self loops 0, 1, …, 99999. -/
def withLoops (x : IArr S3200000) : IArr S3300000 :=
  concatenate S3300000 0 [⟨S3200000, x⟩, ⟨S100000, (iotaInDim S100000 32 0)⟩] concatenates_S3200000_S100000_S3300000_d0

/-- A negative index wrapped by the number of nodes. -/
def wrapIndex (s : IArr S3300000) : IArr S3300000 :=
  select (cmpi .slt s (broadcastInDim S3300000 ![] bcast_S_S3300000 (constantI S_ 32 0#32)))
    (addi s (broadcastInDim S3300000 ![] bcast_S_S3300000 (constantI S_ 32 100000#32))) s

/-- Each node's degree: ones summed at the destinations. -/
def degree (d : IArr S3300000) : FArr S100000 :=
  Host.scatterAdd scatter_S100000_S3300000x1_S3300000_n_0_0_1
    (broadcastInDim S100000 ![] bcast_S_S100000 (constant (F := Ideal) S_ .f32 0x00000000#32))
    (broadcastInDim S3300000x1 ![0] bcast_S3300000_S3300000x1_0 d)
    (broadcastInDim S3300000 ![] bcast_S_S3300000 (constant (F := Ideal) S_ .f32 0x3F800000#32))

/-- Where the degree is positive. -/
def positiveDegree (d : IArr S3300000) : IVec S100000 1 :=
  cmpf .ogt (degree d) (broadcastInDim S100000 ![] bcast_S_S100000 (constant (F := Ideal) S_ .f32 0x00000000#32))

/-- The degree to the power -1/2. -/
def degreePow (d : IArr S3300000) : FArr S100000 :=
  Host.powf (degree d) (broadcastInDim S100000 ![] bcast_S_S100000 (constant (F := Ideal) S_ .f32 0xBF000000#32))

/-- The scalar zero the node factor falls back to. -/
def zeroScalar : FArr S_ := constant (F := Ideal) S_ .f32 0x00000000#32

/-- A choice per node between a value and a scalar spread over the nodes. -/
def pickFactor (c : IVec S100000 1) (p : FArr S100000) (z : FArr S_) : FArr S100000 :=
  select c p (broadcastInDim S100000 ![] bcast_S_S100000 z)

/-- The degree to the power -1/2 where it is positive, zero elsewhere. -/
def invSqrtDegree (d : IArr S3300000) : FArr S100000 :=
  pickFactor (positiveDegree d) (degreePow d) zeroScalar

/-- Each edge's factor from the node factors: the factor at its source times the factor at its destination. -/
def edgeNormOf (f : FArr S100000) (s d : IArr S3300000) : FArr S3300000 :=
  mulf (Host.gather gather_S100000_S3300000x1_S3300000_n_0_n_n_0_1_1 f
      (broadcastInDim S3300000x1 ![0] bcast_S3300000_S3300000x1_0 (wrapIndex s)))
    (Host.gather gather_S100000_S3300000x1_S3300000_n_0_n_n_0_1_1 f
      (broadcastInDim S3300000x1 ![0] bcast_S3300000_S3300000x1_0 (wrapIndex d)))

/-- Each edge's factor. -/
def edgeNorm (s d : IArr S3300000) : FArr S3300000 := edgeNormOf (invSqrtDegree d) s d

/-- The 16-column aggregation: into each node, the sum over its incoming edges of the factor times the source's row. -/
def aggregate16 (s d : IArr S3300000) (nrm : FArr S3300000) (xw : FArr S100000x16) : FArr S100000x16 :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 d)
    (mulf (broadcastInDim S3300000x16 ![0, 1] bcast_S3300000x1_S3300000x16_0_1 (broadcastInDim S3300000x1 ![0] bcast_S3300000_S3300000x1_0 nrm))
      (Host.gather gather_S100000x16_S3300000x1_S3300000x16_1_0_n_n_0_1_116 xw
        (broadcastInDim S3300000x1 ![0] bcast_S3300000_S3300000x1_0 (wrapIndex s))))

/-- The 40-column aggregation. -/
def aggregate40 (s d : IArr S3300000) (nrm : FArr S3300000) (hw : FArr S100000x40) : FArr S100000x40 :=
  Host.scatterAdd scatter_S100000x40_S3300000x1_S3300000x40_1_0_0_1
    (broadcastInDim S100000x40 ![] bcast_S_S100000x40 (constant (F := Ideal) S_ .f32 0x00000000#32))
    (broadcastInDim S3300000x1 ![0] bcast_S3300000_S3300000x1_0 d)
    (mulf (broadcastInDim S3300000x40 ![0, 1] bcast_S3300000x1_S3300000x40_0_1 (broadcastInDim S3300000x1 ![0] bcast_S3300000_S3300000x1_0 nrm))
      (Host.gather gather_S100000x40_S3300000x1_S3300000x40_1_0_n_n_0_1_140 hw
        (broadcastInDim S3300000x1 ![0] bcast_S3300000_S3300000x1_0 (wrapIndex s))))

end Cert.Graph

end
-- ==== Proof.KernelHost.lean ====
/-
  The idealized kernel's host operations between its regions, read as the graph functions of `Graph.lean`. Each stretch
  is read from ANY buffer contents `W` it may start from, as a function of the few buffers it reads: the two endpoint
  lists with their self loops; the comparison, the power and the zero behind the node factor; the node factor; the edge
  factor; the two aggregations; the biases as one-row matrices. A buffer a stretch does not write keeps its contents.
  The stretches are cut where a later value would otherwise repeat an earlier one many times over.
-/
import proofs.«120204_j39230231281891_1_alg».proof.Proof.Gen.KernelIdeal.Frame
import proofs.«120204_j39230231281891_1_alg».proof.Proof.Graph
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-! ## Before the first region: the edge lists, the node factor, the edge factor -/

/-- The sources with the self loops. -/
theorem src_v5 (W : Valuation τ sig (Elt Ideal)) :
    after ((hostOps0 (F := Ideal)).take 7) W (Proc.devRef .tc main_v5) = Graph.withLoops (Graph.srcRow (W (Proc.devRef .tc main_arg5))) := by
  simp only [hostOps0, List.take_succ_cons, List.take_zero, List.drop_succ_cons, List.drop_zero]
  after_results
  rfl
/-- The destinations with the self loops. -/
theorem dst_v6 (W : Valuation τ sig (Elt Ideal)) :
    after ((hostOps0 (F := Ideal)).take 7) W (Proc.devRef .tc main_v6) = Graph.withLoops (Graph.dstRow (W (Proc.devRef .tc main_arg5))) := by
  simp only [hostOps0, List.take_succ_cons, List.take_zero, List.drop_succ_cons, List.drop_zero]
  after_results
  rfl
/-- Where the degree is positive. -/
theorem pos_v12 (W : Valuation τ sig (Elt Ideal)) :
    after ((hostOps0 (F := Ideal)).drop 7) W (Proc.devRef .tc main_v12) = Graph.positiveDegree (W (Proc.devRef .tc main_v6)) := by
  simp only [hostOps0, List.take_succ_cons, List.take_zero, List.drop_succ_cons, List.drop_zero]
  after_results
  rfl
/-- The degree to the power -1/2. -/
theorem pow_v14 (W : Valuation τ sig (Elt Ideal)) :
    after ((hostOps0 (F := Ideal)).drop 7) W (Proc.devRef .tc main_v14) = Graph.degreePow (W (Proc.devRef .tc main_v6)) := by
  simp only [hostOps0, List.take_succ_cons, List.take_zero, List.drop_succ_cons, List.drop_zero]
  after_results
  rfl
/-- The zero the node factor falls back to. -/
theorem zero_cst3 (W : Valuation τ sig (Elt Ideal)) :
    after ((hostOps0 (F := Ideal)).drop 7) W (Proc.devRef .tc main_cst_3) = Graph.zeroScalar := by
  simp only [hostOps0, List.take_succ_cons, List.take_zero, List.drop_succ_cons, List.drop_zero]
  after_results
  rfl
/-- The node factor: the power where the degree is positive, zero elsewhere. -/
theorem factor_v15 (W : Valuation τ sig (Elt Ideal)) :
    after (hostOps0_1 (F := Ideal)) W (Proc.devRef .tc main_v15) = Graph.pickFactor (W (Proc.devRef .tc main_v12)) (W (Proc.devRef .tc main_v14)) (W (Proc.devRef .tc main_cst_3)) := by
  simp only [hostOps0_1, List.take_succ_cons, List.take_zero, List.drop_succ_cons, List.drop_zero]
  after_results
  simp only [cast_eq]
  rfl
set_option maxHeartbeats 2000000 in
/-- The edge factor. -/
theorem norm_v30 (W : Valuation τ sig (Elt Ideal)) :
    after (hostOps0_2 (F := Ideal)) W (Proc.devRef .tc main_v30) = Graph.edgeNormOf (W (Proc.devRef .tc main_v15)) (W (Proc.devRef .tc main_v5)) (W (Proc.devRef .tc main_v6)) := by
  simp only [hostOps0_2, List.take_succ_cons, List.take_zero, List.drop_succ_cons, List.drop_zero]
  after_results_simp
  rfl
theorem tail0_keeps_v5 (W : Valuation τ sig (Elt Ideal)) :
    after ((hostOps0 (F := Ideal)).drop 7) W (Proc.devRef .tc main_v5) = W (Proc.devRef .tc main_v5) := by
  simp only [hostOps0, List.take_succ_cons, List.take_zero, List.drop_succ_cons, List.drop_zero]
  after_results
theorem tail0_keeps_v6 (W : Valuation τ sig (Elt Ideal)) :
    after ((hostOps0 (F := Ideal)).drop 7) W (Proc.devRef .tc main_v6) = W (Proc.devRef .tc main_v6) := by
  simp only [hostOps0, List.take_succ_cons, List.take_zero, List.drop_succ_cons, List.drop_zero]
  after_results
theorem where0_keeps_v5 (W : Valuation τ sig (Elt Ideal)) :
    after (hostOps0_1 (F := Ideal)) W (Proc.devRef .tc main_v5) = W (Proc.devRef .tc main_v5) := by
  simp only [hostOps0_1, List.take_succ_cons, List.take_zero, List.drop_succ_cons, List.drop_zero]
  after_results
theorem where0_keeps_v6 (W : Valuation τ sig (Elt Ideal)) :
    after (hostOps0_1 (F := Ideal)) W (Proc.devRef .tc main_v6) = W (Proc.devRef .tc main_v6) := by
  simp only [hostOps0_1, List.take_succ_cons, List.take_zero, List.drop_succ_cons, List.drop_zero]
  after_results
theorem norm0_keeps_v5 (W : Valuation τ sig (Elt Ideal)) :
    after (hostOps0_2 (F := Ideal)) W (Proc.devRef .tc main_v5) = W (Proc.devRef .tc main_v5) := by
  simp only [hostOps0_2, List.take_succ_cons, List.take_zero, List.drop_succ_cons, List.drop_zero]
  after_results
theorem norm0_keeps_v6 (W : Valuation τ sig (Elt Ideal)) :
    after (hostOps0_2 (F := Ideal)) W (Proc.devRef .tc main_v6) = W (Proc.devRef .tc main_v6) := by
  simp only [hostOps0_2, List.take_succ_cons, List.take_zero, List.drop_succ_cons, List.drop_zero]
  after_results

/-- The three stretches before the first region, as the four cuts above. -/
theorem entry_cuts (W : Valuation τ sig (Elt Ideal)) :
    after (hostOps0_2 (F := Ideal)) (after (hostOps0_1 (F := Ideal)) (after (hostOps0 (F := Ideal)) W))
      = after (hostOps0_2 (F := Ideal)) (after (hostOps0_1 (F := Ideal)) (after ((hostOps0 (F := Ideal)).drop 7) (after ((hostOps0 (F := Ideal)).take 7) W))) := rfl

theorem entry_v5 (W : Valuation τ sig (Elt Ideal)) :
    after (hostOps0_2 (F := Ideal)) (after (hostOps0_1 (F := Ideal)) (after (hostOps0 (F := Ideal)) W)) (Proc.devRef .tc main_v5)
      = Graph.withLoops (Graph.srcRow (W (Proc.devRef .tc main_arg5))) := by
  rw [entry_cuts, norm0_keeps_v5, where0_keeps_v5, tail0_keeps_v5, src_v5]

theorem entry_v6 (W : Valuation τ sig (Elt Ideal)) :
    after (hostOps0_2 (F := Ideal)) (after (hostOps0_1 (F := Ideal)) (after (hostOps0 (F := Ideal)) W)) (Proc.devRef .tc main_v6)
      = Graph.withLoops (Graph.dstRow (W (Proc.devRef .tc main_arg5))) := by
  rw [entry_cuts, norm0_keeps_v6, where0_keeps_v6, tail0_keeps_v6, dst_v6]

/-- The edge factor at the first region's entry, from the edge table. -/
theorem entry_v30 (W : Valuation τ sig (Elt Ideal)) :
    after (hostOps0_2 (F := Ideal)) (after (hostOps0_1 (F := Ideal)) (after (hostOps0 (F := Ideal)) W)) (Proc.devRef .tc main_v30)
      = Graph.edgeNorm (Graph.withLoops (Graph.srcRow (W (Proc.devRef .tc main_arg5)))) (Graph.withLoops (Graph.dstRow (W (Proc.devRef .tc main_arg5)))) := by
  rw [entry_cuts, norm_v30, factor_v15, where0_keeps_v5, where0_keeps_v6, pos_v12, pow_v14, zero_cst3, tail0_keeps_v5, tail0_keeps_v6,
    src_v5, dst_v6]
  rfl

theorem entry_keeps_arg0 (W : Valuation τ sig (Elt Ideal)) :
    after (hostOps0_2 (F := Ideal)) (after (hostOps0_1 (F := Ideal)) (after (hostOps0 (F := Ideal)) W)) (Proc.devRef .tc main_arg0) = W (Proc.devRef .tc main_arg0) := by
  simp only [hostOps0, hostOps0_1, hostOps0_2]
  after_results
theorem entry_keeps_arg1 (W : Valuation τ sig (Elt Ideal)) :
    after (hostOps0_2 (F := Ideal)) (after (hostOps0_1 (F := Ideal)) (after (hostOps0 (F := Ideal)) W)) (Proc.devRef .tc main_arg1) = W (Proc.devRef .tc main_arg1) := by
  simp only [hostOps0, hostOps0_1, hostOps0_2]
  after_results
theorem entry_keeps_arg2 (W : Valuation τ sig (Elt Ideal)) :
    after (hostOps0_2 (F := Ideal)) (after (hostOps0_1 (F := Ideal)) (after (hostOps0 (F := Ideal)) W)) (Proc.devRef .tc main_arg2) = W (Proc.devRef .tc main_arg2) := by
  simp only [hostOps0, hostOps0_1, hostOps0_2]
  after_results
theorem entry_keeps_arg3 (W : Valuation τ sig (Elt Ideal)) :
    after (hostOps0_2 (F := Ideal)) (after (hostOps0_1 (F := Ideal)) (after (hostOps0 (F := Ideal)) W)) (Proc.devRef .tc main_arg3) = W (Proc.devRef .tc main_arg3) := by
  simp only [hostOps0, hostOps0_1, hostOps0_2]
  after_results
theorem entry_keeps_arg4 (W : Valuation τ sig (Elt Ideal)) :
    after (hostOps0_2 (F := Ideal)) (after (hostOps0_1 (F := Ideal)) (after (hostOps0 (F := Ideal)) W)) (Proc.devRef .tc main_arg4) = W (Proc.devRef .tc main_arg4) := by
  simp only [hostOps0, hostOps0_1, hostOps0_2]
  after_results

/-! ## Between the first and the second region: the 16-column aggregation and the bias as a one-row matrix -/

set_option maxHeartbeats 2000000 in
/-- The aggregated first-layer features. -/
theorem agg_v44 (W : Valuation τ sig (Elt Ideal)) :
    after (hostOps1 (F := Ideal)) W (Proc.devRef .tc main_v44) = Graph.aggregate16 (W (Proc.devRef .tc main_v5)) (W (Proc.devRef .tc main_v6)) (W (Proc.devRef .tc main_v30)) (W (Proc.devRef .tc main_v31)) := by
  simp only [hostOps1, List.take_succ_cons, List.take_zero, List.drop_succ_cons, List.drop_zero]
  after_results_simp
  rfl
/-- The first bias as a one-row matrix. -/
theorem bias_v45 (W : Valuation τ sig (Elt Ideal)) :
    after (hostOps1 (F := Ideal)) W (Proc.devRef .tc main_v45) = shapeCast S1x16 (W (Proc.devRef .tc main_arg2)) shapeCasts_S16_S1x16 := by
  simp only [hostOps1, List.take_succ_cons, List.take_zero, List.drop_succ_cons, List.drop_zero]
  after_results
  rfl
theorem mid_keeps_v5 (W : Valuation τ sig (Elt Ideal)) :
    after (hostOps1 (F := Ideal)) W (Proc.devRef .tc main_v5) = W (Proc.devRef .tc main_v5) := by
  simp only [hostOps1, List.take_succ_cons, List.take_zero, List.drop_succ_cons, List.drop_zero]
  after_results
theorem mid_keeps_v6 (W : Valuation τ sig (Elt Ideal)) :
    after (hostOps1 (F := Ideal)) W (Proc.devRef .tc main_v6) = W (Proc.devRef .tc main_v6) := by
  simp only [hostOps1, List.take_succ_cons, List.take_zero, List.drop_succ_cons, List.drop_zero]
  after_results
theorem mid_keeps_v30 (W : Valuation τ sig (Elt Ideal)) :
    after (hostOps1 (F := Ideal)) W (Proc.devRef .tc main_v30) = W (Proc.devRef .tc main_v30) := by
  simp only [hostOps1, List.take_succ_cons, List.take_zero, List.drop_succ_cons, List.drop_zero]
  after_results
theorem mid_keeps_arg3 (W : Valuation τ sig (Elt Ideal)) :
    after (hostOps1 (F := Ideal)) W (Proc.devRef .tc main_arg3) = W (Proc.devRef .tc main_arg3) := by
  simp only [hostOps1, List.take_succ_cons, List.take_zero, List.drop_succ_cons, List.drop_zero]
  after_results
theorem mid_keeps_arg4 (W : Valuation τ sig (Elt Ideal)) :
    after (hostOps1 (F := Ideal)) W (Proc.devRef .tc main_arg4) = W (Proc.devRef .tc main_arg4) := by
  simp only [hostOps1, List.take_succ_cons, List.take_zero, List.drop_succ_cons, List.drop_zero]
  after_results

/-! ## Between the third and the fourth region: the 40-column aggregation and the bias as a one-row matrix -/

set_option maxHeartbeats 2000000 in
/-- The aggregated second-layer features. -/
theorem agg_v60 (W : Valuation τ sig (Elt Ideal)) :
    after (hostOps3 (F := Ideal)) W (Proc.devRef .tc main_v60) = Graph.aggregate40 (W (Proc.devRef .tc main_v5)) (W (Proc.devRef .tc main_v6)) (W (Proc.devRef .tc main_v30)) (W (Proc.devRef .tc main_v47)) := by
  simp only [hostOps3, List.take_succ_cons, List.take_zero, List.drop_succ_cons, List.drop_zero]
  after_results_simp
  rfl
/-- The second bias as a one-row matrix. -/
theorem bias_v61 (W : Valuation τ sig (Elt Ideal)) :
    after (hostOps3 (F := Ideal)) W (Proc.devRef .tc main_v61) = shapeCast S1x40 (W (Proc.devRef .tc main_arg4)) shapeCasts_S40_S1x40 := by
  simp only [hostOps3, List.take_succ_cons, List.take_zero, List.drop_succ_cons, List.drop_zero]
  after_results
  rfl

end Cert.KernelIdeal.Host

end
-- ==== Proof.Spec.lean ====
/-
  The mathematics of the two programs, stated once over the extended reals and over no program's text: the four dense
  stages of a two-layer graph convolution on 100000 nodes. A matrix is a function of a rank-2 index, a row vector of a
  rank-1 index.

  * `project1 x w`, `project2 h w`: the matrix products `x · w` ([100000, 512] by [512, 16]) and `h · w`
    ([100000, 16] by [16, 40]): entry (r, c) is the sum over l of `x (r, l) * w (l, c)`.
  * `biasRelu a b`: entry (r, c) is `max (a (r, c) + b c) 0`.
  * `biasLogSoftmax a b`: with the row of logits `z j = a (r, j) + b j` and its maximum `M` over the 40 classes,
    entry (r, c) is `(z c - M) - log (∑ j, exp (z j - M))`.

  The zero of the rectifier and the `-∞` the row maximum starts from are kept as the float words both programs print
  (`0x00000000`, `0xFF800000`); no proof below needs their values.
-/
import Idealize.ShloMosaic.PureOps.Ideal
import Idealize.ShloMosaic.Lib.ValueIdx

noncomputable section

namespace Cert.Gcn

open Idealize.ShloMosaic Idealize.ShloMosaic.ValueIdx

/-- A matrix of extended reals with `a` rows and `b` columns. -/
abbrev Mat (a b : Nat) : Type := (⟨2, ![a, b]⟩ : Shape).Idx → EReal
/-- A vector of `a` extended reals. -/
abbrev Row (a : Nat) : Type := (⟨1, ![a]⟩ : Shape).Idx → EReal

/-- The one row of a one-row matrix, as a vector. -/
def rowOf {n : Nat} (b : Mat 1 n) : Row n := fun j => b (ix2 (0 : Fin 1) (j 0))

/-- The first layer's projection `x · w`. -/
def project1 (x : Mat 100000 512) (w : Mat 512 16) : Mat 100000 16 :=
  fun i => ∑ l : Fin 512, x (ix2 (i 0) l) * w (ix2 l (i 1))

/-- The second layer's projection `h · w`. -/
def project2 (h : Mat 100000 16) (w : Mat 16 40) : Mat 100000 40 :=
  fun i => ∑ l : Fin 16, h (ix2 (i 0) l) * w (ix2 l (i 1))

/-- Bias, then the rectifier. -/
def biasRelu (a : Mat 100000 16) (b : Row 16) : Mat 100000 16 :=
  fun i => max (a i + b (ix1 (i 1))) (Ideal.ofBits .f32 0x00000000#32)

/-- Row `r` of the biased logits, as a function of the class. -/
def logits (a : Mat 100000 40) (b : Row 40) (r : Fin 100000) : Fin 40 → EReal :=
  fun j => a (ix2 r j) + b (ix1 j)

/-- The maximum of 40 extended reals, folded from the float word of `-∞`. -/
def rowMax (z : Fin 40 → EReal) : EReal :=
  (Finset.univ : Finset (Fin 40)).fold max (Ideal.ofBits .f32 0xFF800000#32) z

/-- Bias, then the logarithm of the row softmax, shifted by the row maximum. -/
def biasLogSoftmax (a : Mat 100000 40) (b : Row 40) : Mat 100000 40 :=
  fun i => (logits a b (i 0) (i 1) - rowMax (logits a b (i 0)))
    - Ideal.log (∑ j : Fin 40, Ideal.exp (logits a b (i 0) j - rowMax (logits a b (i 0))))

end Cert.Gcn

end
-- ==== Proof.Project1.lean ====
/-
  The first region: the input features times the first weight matrix. The pipeline walks the [100000, 512] features in
  twenty blocks of 5000 rows; at point `t` the body loads block `t` of the features and the whole [512, 16] weights and
  stores their product over block `t` of the output. Entry (r, c) of that block is the sum over the 512 contraction
  positions of the block's row r against column c of the weights, so block `t` of the output is block `t` of
  `Gcn.project1` of the two arrays as the region finds them; the twenty blocks cover the array.
-/
import proofs.«120204_j39230231281891_1_alg».proof.Proof.Gen.KernelIdeal.Frame
import proofs.«120204_j39230231281891_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project1

open Cert.KernelIdeal Cert.KernelIdeal.Gen
open Idealize.ShloMosaic Idealize.ShloMosaic.TcCoe Idealize.SL.Sem Idealize.ShloMosaic.ValueIdx
open Idealize.ShloMosaic.Pipeline (Dat)

/-- The origin of a rank-2 rectangle. -/
theorem origin : (![0, 0] : Fin 2 → Nat) = fun _ => 0 := funext fun a => by fin_cases a <;> rfl

/-! ## The contraction's operand indices: at output (r, c) and contraction position l, (r, l) on the left and (l, c) on the right -/

theorem lhs_row (i : S5000x16.Idx) (q : dot_S5000x512_S512x16_S5000x16_1_0_0_1_n_n.contr.Idx) : (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_col (i : S5000x16.Idx) (q : dot_S5000x512_S512x16_S5000x16_1_0_0_1_n_n.contr.Idx) : (dot_S5000x512_S512x16_S5000x16_1_0_0_1_n_n.lhsIdx i q 1).val = (q ⟨0, by decide⟩).val :=
  dot_S5000x512_S512x16_S5000x16_1_0_0_1_n_n.lhsIdx_val_of_single rfl i q
theorem rhs_row (i : S5000x16.Idx) (q : dot_S5000x512_S512x16_S5000x16_1_0_0_1_n_n.contr.Idx) : (dot_S5000x512_S512x16_S5000x16_1_0_0_1_n_n.rhsIdx i q 0).val = (q ⟨0, by decide⟩).val :=
  dot_S5000x512_S512x16_S5000x16_1_0_0_1_n_n.rhsIdx_val_of_single rfl i q
theorem rhs_col (i : S5000x16.Idx) (q : dot_S5000x512_S512x16_S5000x16_1_0_0_1_n_n.contr.Idx) : (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The body's stored value at an entry of the block: the matrix unit's product into a zero accumulator is the plain sum
    over the 512 contraction positions (rounding the operands to bf16 changes no extended real). -/
theorem payload_apply (x : Vec Ideal S5000x512 .f32) (w : Vec Ideal S512x16 .f32) (j : S5000x16.Idx) :
    k0_pay1 (F := Ideal) x w j = ∑ l : Fin 512, x (ix2 (j 0) l) * w (ix2 l (j 1)) := by
  unfold k0_pay1
  refine (Ideal.matmul_constant_zero_apply dot_S5000x512_S512x16_S5000x16_1_0_0_1_n_n none _ _ j).trans ?_
  rw [← Equiv.sum_comp (contrEquiv1 dot_S5000x512_S512x16_S5000x16_1_0_0_1_n_n 512 rfl rfl).symm]
  refine Finset.sum_congr rfl fun l _ => ?_
  have hl := contrEquiv1_symm_val dot_S5000x512_S512x16_S5000x16_1_0_0_1_n_n 512 rfl rfl l
  have el : dot_S5000x512_S512x16_S5000x16_1_0_0_1_n_n.lhsIdx j ((contrEquiv1 dot_S5000x512_S512x16_S5000x16_1_0_0_1_n_n 512 rfl rfl).symm l) = ix2 (j 0) l := funext fun a => Fin.ext (by
    match a with
    | ⟨0, _⟩ => exact lhs_row _ _
    | ⟨1, _⟩ => exact (lhs_col _ _).trans hl)
  have er : dot_S5000x512_S512x16_S5000x16_1_0_0_1_n_n.rhsIdx j ((contrEquiv1 dot_S5000x512_S512x16_S5000x16_1_0_0_1_n_n 512 rfl rfl).symm l) = ix2 l (j 1) := funext fun a => Fin.ext (by
    match a with
    | ⟨0, _⟩ => exact (rhs_row _ _).trans hl
    | ⟨1, _⟩ => exact rhs_col _ _)
  show x (dot_S5000x512_S512x16_S5000x16_1_0_0_1_n_n.lhsIdx j _) * w (dot_S5000x512_S512x16_S5000x16_1_0_0_1_n_n.rhsIdx j _) = _
  rw [el, er]
  rfl

/-- The same against the two whole arrays: if row `y 0` of the left block is row `i 0` of the left array, the right block
    is the right array, and `i` is in `y`'s column, the stored value at `y` is the product's entry `i`. -/
theorem payload_eq (x : Vec Ideal S5000x512 .f32) (w : Vec Ideal S512x16 .f32) (A : Gcn.Mat 100000 512) (W : Gcn.Mat 512 16)
    (y : S5000x16.Idx) (i : S100000x16.Idx) (hx : ∀ l : Fin 512, x (ix2 (y 0) l) = A (ix2 (i 0) l))
    (hw : ∀ (l : Fin 512) (q : Fin 16), w (ix2 l q) = W (ix2 l q)) (hi : (i 1).val = (y 1).val) :
    k0_pay1 (F := Ideal) x w y = Gcn.project1 A W i := by
  rw [payload_apply]
  unfold Gcn.project1
  have hq : (i 1 : Fin 16) = y 1 := Fin.ext hi
  refine Finset.sum_congr rfl fun l _ => ?_
  rw [hx l, hw l (y 1), hq]

section Region

variable (V : (c : Dev nD) → (b : Ref sig .tc) → Buf (Elt Ideal) ((c : Thread nD τ).loc b))

/-- The printed index maps, decided over the twenty points: the left operand's and the output's windows sit at block row
    `t`, the right operand's window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays at the region's entry. -/
theorem flushed_eq (c : Dev nD) (t : Fin cfg0.N) :
    (dat0 V c).flushed 2 t
      = ((cfg0.win 2).blk t).view.read (Elt Ideal) (Gcn.project1 (V c main_arg0) (V c main_arg1)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := idx_facts t
  funext j
  refine payload_eq _ _ (V c main_arg0) (V c main_arg1) j (((cfg0.win 2).blk t).view.emb j) ?_ ?_ ?_
  · intro l
    show V c main_arg0 (((cfg0.win 0).blk t).view.emb (ix2 (j 0) l)) = V c main_arg0 (ix2 ((((cfg0.win 2).blk t).view.emb j) 0) l)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * l.val = l.val; omega
  · intro l q
    show V c main_arg1 (((cfg0.win 1).blk t).view.emb (ix2 l q)) = V c main_arg1 (ix2 l q)
    refine congrArg (V c main_arg1) (funext fun a => Fin.ext ?_)
    match a with
    | ⟨0, _⟩ => show win0_1.index t (0 : Fin 2) * 512 + 1 * l.val = l.val; omega
    | ⟨1, _⟩ => show win0_1.index t (1 : Fin 2) * 16 + 1 * q.val = q.val; omega
  · show win0_2.index t (1 : Fin 2) * 16 + 1 * (j 1).val = (j 1).val
    omega

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Every entry is in some point's block: row `r` in block `r / 5000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 5000 < cfg0.N := by show _ < grid0.N; rw [N_0]; omega
  refine ⟨⟨(i 0).val / 5000, hN⟩, flush0_2 _, ?_⟩
  rw [mem_blk]
  obtain ⟨e0, e1, e2, e3, e4, e5⟩ := idx_facts ⟨(i 0).val / 5000, hN⟩
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 16 ≤ (i 1).val ∧ (i 1).val < win0_2.index ⟨(i 0).val / 5000, hN⟩ (1 : Fin 2) * 16 + 16
    rw [e5]; omega

/-- The output array after the region: the product of the two arrays, whole. -/
theorem final (c : Dev nD) :
    (dat0 V c).arrAt 2 cfg0.N = Gcn.project1 (V c main_arg0) (V c main_arg1) :=
  (dat0 V c).arrAt_eq_of_cover 2 _ (fun t _ => flushed_eq V c t) (cover)

end Region

end Cert.KernelIdeal.Project1

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.BiasRelu.lean ====
/-
  The second region: bias and rectifier. The pipeline walks the [100000, 16] array in five blocks of 20000 rows; at
  point `t` the body loads block `t` of the aggregated features and the whole one-row bias, and stores
  `max (a + b) 0` over the block. An entry of the block depends on the same entry of the input block and on the bias
  entry of its column, so block `t` of the output is block `t` of `Gcn.biasRelu` of the two arrays as the region
  finds them; the five blocks cover the array, so the array after the region is that function whole.
-/
import proofs.«120204_j39230231281891_1_alg».proof.Proof.Gen.KernelIdeal.Frame
import proofs.«120204_j39230231281891_1_alg».proof.Proof.Spec
import proofs.«120204_j39230231281891_1_alg».proof.Proof.LibLaneMax
import Idealize.ShloMosaic.Lib.Pipeline.Value
import Idealize.ShloMosaic.Lib.ValueIdx

set_option maxRecDepth 16384

noncomputable section

namespace Cert.KernelIdeal.BiasRelu

open Cert.KernelIdeal Cert.KernelIdeal.Gen
open Idealize.ShloMosaic Idealize.ShloMosaic.TcCoe Idealize.SL.Sem Idealize.ShloMosaic.ValueIdx
open Idealize.ShloMosaic.Pipeline (Dat)

/-- The origin of a rank-2 rectangle. -/
theorem origin : (![0, 0] : Fin 2 → Nat) = fun _ => 0 := funext fun a => by fin_cases a <;> rfl

/-- The body's stored value at (p, q): the input block's entry plus the bias of column q, against zero. -/
theorem payload_apply (b : Vec Ideal S1x16 .f32) (a : Vec Ideal S20000x16 .f32) (p : Fin 20000) (q : Fin 16) :
    k1_pay1 (F := Ideal) b a (ix2 p q) = max (a (ix2 p q) + b (ix2 (0 : Fin 1) q)) (Ideal.ofBits .f32 0x00000000#32) := by
  unfold k1_pay1
  rw [shapeCast_self, shapeCast_self, shapeCast_self]
  show max (a (ix2 p q) + broadcastTo S20000x16 b broadcasts_S1x16_S20000x16 (ix2 p q)) _ = _
  rw [broadcastTo_1b_ab_apply]
  rfl

/-- The same against the two whole arrays: if the input block's entry at `y` is the array's at `i`, the bias block is
    the bias array, and `i` is in `y`'s column, the stored value at `y` is `Gcn.biasRelu` at `i`. -/
theorem payload_eq (b : Vec Ideal S1x16 .f32) (a : Vec Ideal S20000x16 .f32) (A : Gcn.Mat 100000 16) (B : Gcn.Mat 1 16)
    (y : S20000x16.Idx) (i : S100000x16.Idx) (ha : a y = A i) (hb : ∀ q : Fin 16, b (ix2 (0 : Fin 1) q) = B (ix2 (0 : Fin 1) q))
    (hi : (i 1).val = (y 1).val) :
    k1_pay1 (F := Ideal) b a y = Gcn.biasRelu A (Gcn.rowOf B) i := by
  obtain ⟨p, q, rfl⟩ : ∃ (p : Fin 20000) (q : Fin 16), y = ix2 p q := ⟨y 0, y 1, eq_ix2 y⟩
  rw [payload_apply, ha, hb]
  have hq : i 1 = q := Fin.ext hi
  unfold Gcn.biasRelu Gcn.rowOf
  rw [hq]

section Region

variable (V : (c : Dev nD) → (b : Ref sig .tc) → Buf (Elt Ideal) ((c : Thread nD τ).loc b))

/-- The printed index maps, decided over the five points: the feature windows sit at block row `t`, column block 0; the bias window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `Gcn.biasRelu` of the two arrays at the region's entry. -/
theorem flushed_eq (c : Dev nD) (t : Fin cfg1.N) :
    (dat1 V c).flushed 2 t
      = ((cfg1.win 2).blk t).view.read (Elt Ideal) (Gcn.biasRelu (V c main_v44) (Gcn.rowOf (V c main_v45))) := by
  show (cfg1.win 2).cut (grid1.coords t) ((dat1 V c).after 2 t) = _
  rw [after1_2]
  unfold out1_2
  rw [View.canon_unit_zero origin]
  simp only [View.ld_unit_zero (S := S1x16) origin, View.ld_unit_zero (S := S20000x16) origin]
  obtain ⟨e0, e1, e2, e3, e4, e5⟩ := idx_facts t
  funext j
  refine payload_eq _ _ (V c main_v44) (V c main_v45) j (((cfg1.win 2).blk t).view.emb j) ?_ ?_ ?_
  · show V c main_v44 (((cfg1.win 0).blk t).view.emb j) = V c main_v44 (((cfg1.win 2).blk t).view.emb j)
    refine congrArg (V c main_v44) (funext fun a => Fin.ext ?_)
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 16 + 1 * (j 1).val = win1_2.index t (1 : Fin 2) * 16 + 1 * (j 1).val; omega
  · intro q
    show V c main_v45 (((cfg1.win 1).blk t).view.emb (ix2 (0 : Fin 1) q)) = V c main_v45 (ix2 (0 : Fin 1) q)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 16 + 1 * q.val = q.val; omega
  · show win1_2.index t (1 : Fin 2) * 16 + 1 * (j 1).val = (j 1).val
    omega

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S20000x16.size a ≤ (i a).val ∧ (i a).val < win1_2.index t a * S20000x16.size a + S20000x16.size a := by
  show i ∈ ((View.whole main_v46).slice (win1_2.rect t)).set ↔ _
  rw [View.set_slice_whole, Rect.mem_set_unit]
  exact Iff.rfl

/-- Every entry is in some point's block: row `r` in block `r / 20000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : (i 0).val / 20000 < cfg1.N := by show _ < grid1.N; rw [N_1]; omega
  refine ⟨⟨(i 0).val / 20000, hN⟩, flush1_2 _, ?_⟩
  rw [mem_blk]
  obtain ⟨e0, e1, e2, e3, e4, e5⟩ := idx_facts ⟨(i 0).val / 20000, hN⟩
  intro a
  match a with
  | ⟨0, _⟩ =>
    show win1_2.index ⟨(i 0).val / 20000, hN⟩ (0 : Fin 2) * 20000 ≤ (i 0).val ∧ (i 0).val < win1_2.index ⟨(i 0).val / 20000, hN⟩ (0 : Fin 2) * 20000 + 20000
    rw [e4]; show (i 0).val / 20000 * 20000 ≤ (i 0).val ∧ (i 0).val < (i 0).val / 20000 * 20000 + 20000; omega
  | ⟨1, _⟩ =>
    show win1_2.index ⟨(i 0).val / 20000, hN⟩ (1 : Fin 2) * 16 ≤ (i 1).val ∧ (i 1).val < win1_2.index ⟨(i 0).val / 20000, hN⟩ (1 : Fin 2) * 16 + 16
    rw [e5]; omega

/-- The output array after the region: bias and rectifier of the aggregated features, whole. -/
theorem final (c : Dev nD) :
    (dat1 V c).arrAt 2 cfg1.N = Gcn.biasRelu (V c main_v44) (Gcn.rowOf (V c main_v45)) :=
  (dat1 V c).arrAt_eq_of_cover 2 _ (fun t _ => flushed_eq V c t) (cover)

end Region

end Cert.KernelIdeal.BiasRelu

end
-- ==== Proof.Project2.lean ====
/-
  The third region: the hidden features times the second weight matrix. The pipeline walks the [100000, 16] hidden
  features in twenty blocks of 5000 rows; at point `t` the body loads block `t` and the whole [16, 40] weights and
  stores their product over block `t` of the output. Entry (r, c) of that block is the sum over the 16 contraction
  positions of the block's row r against column c of the weights, so block `t` of the output is block `t` of
  `Gcn.project2` of the two arrays as the region finds them; the twenty blocks cover the array.
-/
import proofs.«120204_j39230231281891_1_alg».proof.Proof.Gen.KernelIdeal.Frame
import proofs.«120204_j39230231281891_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Project2

open Cert.KernelIdeal Cert.KernelIdeal.Gen
open Idealize.ShloMosaic Idealize.ShloMosaic.TcCoe Idealize.SL.Sem Idealize.ShloMosaic.ValueIdx
open Idealize.ShloMosaic.Pipeline (Dat)

/-- The origin of a rank-2 rectangle. -/
theorem origin : (![0, 0] : Fin 2 → Nat) = fun _ => 0 := funext fun a => by fin_cases a <;> rfl

/-! ## The contraction's operand indices: at output (r, c) and contraction position l, (r, l) on the left and (l, c) on the right -/

theorem lhs_row (i : S5000x40.Idx) (q : dot_S5000x16_S16x40_S5000x40_1_0_0_1_n_n.contr.Idx) : (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhs_col (i : S5000x40.Idx) (q : dot_S5000x16_S16x40_S5000x40_1_0_0_1_n_n.contr.Idx) : (dot_S5000x16_S16x40_S5000x40_1_0_0_1_n_n.lhsIdx i q 1).val = (q ⟨0, by decide⟩).val :=
  dot_S5000x16_S16x40_S5000x40_1_0_0_1_n_n.lhsIdx_val_of_single rfl i q
theorem rhs_row (i : S5000x40.Idx) (q : dot_S5000x16_S16x40_S5000x40_1_0_0_1_n_n.contr.Idx) : (dot_S5000x16_S16x40_S5000x40_1_0_0_1_n_n.rhsIdx i q 0).val = (q ⟨0, by decide⟩).val :=
  dot_S5000x16_S16x40_S5000x40_1_0_0_1_n_n.rhsIdx_val_of_single rfl i q
theorem rhs_col (i : S5000x40.Idx) (q : dot_S5000x16_S16x40_S5000x40_1_0_0_1_n_n.contr.Idx) : (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The body's stored value at an entry of the block: the matrix unit's product into a zero accumulator is the plain sum
    over the 16 contraction positions (rounding the operands to bf16 changes no extended real). -/
theorem payload_apply (x : Vec Ideal S5000x16 .f32) (w : Vec Ideal S16x40 .f32) (j : S5000x40.Idx) :
    k2_pay1 (F := Ideal) x w j = ∑ l : Fin 16, x (ix2 (j 0) l) * w (ix2 l (j 1)) := by
  unfold k2_pay1
  rw [shapeCast_self]
  refine (Ideal.matmul_constant_zero_apply dot_S5000x16_S16x40_S5000x40_1_0_0_1_n_n none _ _ j).trans ?_
  rw [← Equiv.sum_comp (contrEquiv1 dot_S5000x16_S16x40_S5000x40_1_0_0_1_n_n 16 rfl rfl).symm]
  refine Finset.sum_congr rfl fun l _ => ?_
  have hl := contrEquiv1_symm_val dot_S5000x16_S16x40_S5000x40_1_0_0_1_n_n 16 rfl rfl l
  have el : dot_S5000x16_S16x40_S5000x40_1_0_0_1_n_n.lhsIdx j ((contrEquiv1 dot_S5000x16_S16x40_S5000x40_1_0_0_1_n_n 16 rfl rfl).symm l) = ix2 (j 0) l := funext fun a => Fin.ext (by
    match a with
    | ⟨0, _⟩ => exact lhs_row _ _
    | ⟨1, _⟩ => exact (lhs_col _ _).trans hl)
  have er : dot_S5000x16_S16x40_S5000x40_1_0_0_1_n_n.rhsIdx j ((contrEquiv1 dot_S5000x16_S16x40_S5000x40_1_0_0_1_n_n 16 rfl rfl).symm l) = ix2 l (j 1) := funext fun a => Fin.ext (by
    match a with
    | ⟨0, _⟩ => exact (rhs_row _ _).trans hl
    | ⟨1, _⟩ => exact rhs_col _ _)
  show x (dot_S5000x16_S16x40_S5000x40_1_0_0_1_n_n.lhsIdx j _) * w (dot_S5000x16_S16x40_S5000x40_1_0_0_1_n_n.rhsIdx j _) = _
  rw [el, er]
  rfl

/-- The same against the two whole arrays: if row `y 0` of the left block is row `i 0` of the left array, the right block
    is the right array, and `i` is in `y`'s column, the stored value at `y` is the product's entry `i`. -/
theorem payload_eq (x : Vec Ideal S5000x16 .f32) (w : Vec Ideal S16x40 .f32) (A : Gcn.Mat 100000 16) (W : Gcn.Mat 16 40)
    (y : S5000x40.Idx) (i : S100000x40.Idx) (hx : ∀ l : Fin 16, x (ix2 (y 0) l) = A (ix2 (i 0) l))
    (hw : ∀ (l : Fin 16) (q : Fin 40), w (ix2 l q) = W (ix2 l q)) (hi : (i 1).val = (y 1).val) :
    k2_pay1 (F := Ideal) x w y = Gcn.project2 A W i := by
  rw [payload_apply]
  unfold Gcn.project2
  have hq : (i 1 : Fin 40) = y 1 := Fin.ext hi
  refine Finset.sum_congr rfl fun l _ => ?_
  rw [hx l, hw l (y 1), hq]

section Region

variable (V : (c : Dev nD) → (b : Ref sig .tc) → Buf (Elt Ideal) ((c : Thread nD τ).loc b))

/-- The printed index maps, decided over the twenty points: the left operand's and the output's windows sit at block row
    `t`, the right operand's window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays at the region's entry. -/
theorem flushed_eq (c : Dev nD) (t : Fin cfg2.N) :
    (dat2 V c).flushed 2 t
      = ((cfg2.win 2).blk t).view.read (Elt Ideal) (Gcn.project2 (V c main_v46) (V c main_arg3)) := by
  show (cfg2.win 2).cut (grid2.coords t) ((dat2 V c).after 2 t) = _
  rw [after2_2]
  unfold out2_2
  rw [View.canon_unit_zero origin]
  simp only [View.ld_unit_zero (S := S5000x16) origin, View.ld_unit_zero (S := S16x40) origin]
  obtain ⟨e0, e1, e2, e3, e4, e5⟩ := idx_facts t
  funext j
  refine payload_eq _ _ (V c main_v46) (V c main_arg3) j (((cfg2.win 2).blk t).view.emb j) ?_ ?_ ?_
  · intro l
    show V c main_v46 (((cfg2.win 0).blk t).view.emb (ix2 (j 0) l)) = V c main_v46 (ix2 ((((cfg2.win 2).blk t).view.emb j) 0) l)
    refine congrArg (V c main_v46) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * l.val = l.val; omega
  · intro l q
    show V c main_arg3 (((cfg2.win 1).blk t).view.emb (ix2 l q)) = V c main_arg3 (ix2 l q)
    refine congrArg (V c main_arg3) (funext fun a => Fin.ext ?_)
    match a with
    | ⟨0, _⟩ => show win2_1.index t (0 : Fin 2) * 16 + 1 * l.val = l.val; omega
    | ⟨1, _⟩ => show win2_1.index t (1 : Fin 2) * 40 + 1 * q.val = q.val; omega
  · show win2_2.index t (1 : Fin 2) * 40 + 1 * (j 1).val = (j 1).val
    omega

/-- An index of the array is in point `t`'s block iff each coordinate is in the block's range on its axis. -/
theorem mem_blk (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v47).slice (win2_2.rect t)).set ↔ _
  rw [View.set_slice_whole, Rect.mem_set_unit]
  exact Iff.rfl

/-- Every entry is in some point's block: row `r` in block `r / 5000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : (i 0).val / 5000 < cfg2.N := by show _ < grid2.N; rw [N_2]; omega
  refine ⟨⟨(i 0).val / 5000, hN⟩, flush2_2 _, ?_⟩
  rw [mem_blk]
  obtain ⟨e0, e1, e2, e3, e4, e5⟩ := idx_facts ⟨(i 0).val / 5000, hN⟩
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 40 ≤ (i 1).val ∧ (i 1).val < win2_2.index ⟨(i 0).val / 5000, hN⟩ (1 : Fin 2) * 40 + 40
    rw [e5]; omega

/-- The output array after the region: the product of the two arrays, whole. -/
theorem final (c : Dev nD) :
    (dat2 V c).arrAt 2 cfg2.N = Gcn.project2 (V c main_v46) (V c main_arg3) :=
  (dat2 V c).arrAt_eq_of_cover 2 _ (fun t _ => flushed_eq V c t) (cover)

end Region

end Cert.KernelIdeal.Project2

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LogSoftmax.lean ====
/-
  The fourth region: bias and the logarithm of the row softmax. The pipeline walks the [100000, 40] aggregated logits in
  ten blocks of 10000 rows; at point `t` the body loads block `t` and the whole one-row bias and stores, over the
  block, the biased logits minus their row maximum, minus the logarithm of the row sum of the exponentials of those
  differences. The maximum and the sum run along a row and a row lies inside one block, so an entry of the stored
  block depends on its own row of the input block and on the bias: block `t` of the output is block `t` of
  `Gcn.biasLogSoftmax` of the two arrays as the region finds them; the ten blocks cover the array.
-/
import proofs.«120204_j39230231281891_1_alg».proof.Proof.Gen.KernelIdeal.Frame
import proofs.«120204_j39230231281891_1_alg».proof.Proof.Spec
import proofs.«120204_j39230231281891_1_alg».proof.Proof.LibLaneMax
import proofs.«120204_j39230231281891_1_alg».proof.Proof.LibKeepdims
import Idealize.ShloMosaic.Lib.Pipeline.Value
import Idealize.ShloMosaic.Lib.ValueIdx

set_option maxRecDepth 16384

noncomputable section

namespace Cert.KernelIdeal.LogSoftmax

open Cert.KernelIdeal Cert.KernelIdeal.Gen
open Idealize.ShloMosaic Idealize.ShloMosaic.TcCoe Idealize.SL.Sem Idealize.ShloMosaic.ValueIdx
open Idealize.ShloMosaic.Pipeline (Dat)

/-- The origin of a rank-2 rectangle. -/
theorem origin : (![0, 0] : Fin 2 → Nat) = fun _ => 0 := funext fun a => by fin_cases a <;> rfl

/-- The body's chain after the bias, over any block `z` of biased logits, at (p, q): the entry minus its row's
    maximum, minus the logarithm of the row's sum of exponentials of such differences. The lane maximum and the lane
    sum are kept as a column and broadcast back over the row. -/
theorem shifted_log_apply (z : FVec Ideal S10000x40 .f32) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin 10000) (q : Fin 40) :
    subf (subf z (broadcastTo S10000x40 (shapeCast S10000x1 (multiReduction .maximumf [1] S10000 z 0xFF800000#32 reduces_S10000x40_S10000 hφ hmax) shapeCasts_S10000_S10000x1) broadcasts_S10000x1_S10000x40))
      (broadcastTo S10000x40 (log (shapeCast S10000x1 (multiReduction .add [1] S10000 (exp (subf z (broadcastTo S10000x40 (shapeCast S10000x1 (multiReduction .maximumf [1] S10000 z 0xFF800000#32 reduces_S10000x40_S10000 hφ hmax) shapeCasts_S10000_S10000x1) broadcasts_S10000x1_S10000x40))) 0x00000000#32 reduces_S10000x40_S10000 hφ hadd) shapeCasts_S10000_S10000x1)) broadcasts_S10000x1_S10000x40) (ix2 p q)
    = (z (ix2 p q) - Gcn.rowMax (fun k => z (ix2 p k)))
        - Ideal.log (∑ k : Fin 40, Ideal.exp (z (ix2 p k) - Gcn.rowMax (fun k => z (ix2 p k)))) := by
  have hM : ∀ (r : Fin 10000) (k : Fin 40), broadcastTo S10000x40 (shapeCast S10000x1 (multiReduction .maximumf [1] S10000 z 0xFF800000#32 reduces_S10000x40_S10000 hφ hmax) shapeCasts_S10000_S10000x1) broadcasts_S10000x1_S10000x40 (ix2 r k) = Gcn.rowMax (fun k' => z (ix2 r k')) := fun r k =>
    (broadcastTo_a1_ab_apply _ _ r k).trans ((shapeCast_a_a1_apply _ _ r 0).trans (laneMax_ab_apply z _ _ hφ hmax r))
  generalize broadcastTo S10000x40 (shapeCast S10000x1 (multiReduction .maximumf [1] S10000 z 0xFF800000#32 reduces_S10000x40_S10000 hφ hmax) shapeCasts_S10000_S10000x1) broadcasts_S10000x1_S10000x40 = M at hM ⊢
  show (z (ix2 p q) - M (ix2 p q)) - broadcastTo S10000x40 (log (shapeCast S10000x1 (multiReduction .add [1] S10000 (exp (subf z M)) 0x00000000#32 reduces_S10000x40_S10000 hφ hadd) shapeCasts_S10000_S10000x1)) broadcasts_S10000x1_S10000x40 (ix2 p q) = _
  rw [hM p q, broadcastTo_a1_ab_apply]
  show _ - Ideal.log (shapeCast S10000x1 (multiReduction .add [1] S10000 (exp (subf z M)) 0x00000000#32 reduces_S10000x40_S10000 hφ hadd) shapeCasts_S10000_S10000x1 (ix2 p (0 : Fin 1))) = _
  rw [shapeCast_a_a1_apply, laneSum_ab_apply]
  refine congrArg (fun s => (z (ix2 p q) - Gcn.rowMax (fun k => z (ix2 p k))) - Ideal.log s) (Finset.sum_congr rfl fun k _ => ?_)
  show Ideal.exp (z (ix2 p k) - M (ix2 p k)) = _
  rw [hM p k]

/-- The body's stored value at (p, q), from the input block `a` and the bias block `b`. -/
theorem payload_apply (b : Vec Ideal S1x40 .f32) (a : Vec Ideal S10000x40 .f32) (p : Fin 10000) (q : Fin 40) :
    k3_pay1 (F := Ideal) b a (ix2 p q)
      = ((a (ix2 p q) + b (ix2 (0 : Fin 1) q)) - Gcn.rowMax (fun k => a (ix2 p k) + b (ix2 (0 : Fin 1) k)))
        - Ideal.log (∑ k : Fin 40, Ideal.exp ((a (ix2 p k) + b (ix2 (0 : Fin 1) k)) - Gcn.rowMax (fun k => a (ix2 p k) + b (ix2 (0 : Fin 1) k)))) := by
  unfold k3_pay1
  rw [shapeCast_self, shapeCast_self, shapeCast_self]
  have hz : ∀ (r : Fin 10000) (k : Fin 40), (addf (F := Ideal) (φ := .f32) a (broadcastTo S10000x40 b broadcasts_S1x40_S10000x40) : FVec Ideal S10000x40 .f32) (ix2 r k) = a (ix2 r k) + b (ix2 (0 : Fin 1) k) := fun r k => by
    show a (ix2 r k) + broadcastTo S10000x40 b broadcasts_S1x40_S10000x40 (ix2 r k) = _
    rw [broadcastTo_1b_ab_apply]
  refine (shifted_log_apply _ _ _ _ p q).trans ?_
  simp only [hz]

/-- The same against the two whole arrays: if row `y 0` of the input block is row `i 0` of the array, the bias block is
    the bias array, and `i` is in `y`'s column, the stored value at `y` is `Gcn.biasLogSoftmax` at `i`. -/
theorem payload_eq (b : Vec Ideal S1x40 .f32) (a : Vec Ideal S10000x40 .f32) (A : Gcn.Mat 100000 40) (B : Gcn.Mat 1 40)
    (y : S10000x40.Idx) (i : S100000x40.Idx) (ha : ∀ k : Fin 40, a (ix2 (y 0) k) = A (ix2 (i 0) k))
    (hb : ∀ k : Fin 40, b (ix2 (0 : Fin 1) k) = B (ix2 (0 : Fin 1) k)) (hi : (i 1).val = (y 1).val) :
    k3_pay1 (F := Ideal) b a y = Gcn.biasLogSoftmax A (Gcn.rowOf B) i := by
  obtain ⟨p, q, rfl⟩ : ∃ (p : Fin 10000) (q : Fin 40), y = ix2 p q := ⟨y 0, y 1, eq_ix2 y⟩
  have ha' : ∀ k : Fin 40, a (ix2 p k) = A (ix2 (i 0) k) := ha
  have hq : (i 1 : Fin 40) = q := Fin.ext hi
  rw [payload_apply]
  simp only [ha', hb]
  unfold Gcn.biasLogSoftmax Gcn.logits Gcn.rowOf
  rw [hq]

section Region

variable (V : (c : Dev nD) → (b : Ref sig .tc) → Buf (Elt Ideal) ((c : Thread nD τ).loc b))

/-- The printed index maps, decided over the ten points: the logits' windows sit at block row `t`, the bias window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `Gcn.biasLogSoftmax` of the two arrays at the region's entry. -/
theorem flushed_eq (c : Dev nD) (t : Fin cfg3.N) :
    (dat3 V c).flushed 2 t
      = ((cfg3.win 2).blk t).view.read (Elt Ideal) (Gcn.biasLogSoftmax (V c main_v60) (Gcn.rowOf (V c main_v61))) := by
  show (cfg3.win 2).cut (grid3.coords t) ((dat3 V c).after 2 t) = _
  rw [after3_2]
  unfold out3_2
  rw [View.canon_unit_zero origin]
  simp only [View.ld_unit_zero (S := S1x40) origin, View.ld_unit_zero (S := S10000x40) origin]
  obtain ⟨e0, e1, e2, e3, e4, e5⟩ := idx_facts t
  funext j
  refine payload_eq _ _ (V c main_v60) (V c main_v61) j (((cfg3.win 2).blk t).view.emb j) ?_ ?_ ?_
  · intro k
    show V c main_v60 (((cfg3.win 0).blk t).view.emb (ix2 (j 0) k)) = V c main_v60 (ix2 ((((cfg3.win 2).blk t).view.emb j) 0) k)
    refine congrArg (V c main_v60) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 40 + 1 * k.val = k.val; omega
  · intro k
    show V c main_v61 (((cfg3.win 1).blk t).view.emb (ix2 (0 : Fin 1) k)) = V c main_v61 (ix2 (0 : Fin 1) k)
    refine congrArg (V c main_v61) (funext fun a => Fin.ext ?_)
    match a with
    | ⟨0, _⟩ => show win3_1.index t (0 : Fin 2) * 1 + 1 * 0 = 0; omega
    | ⟨1, _⟩ => show win3_1.index t (1 : Fin 2) * 40 + 1 * k.val = k.val; omega
  · show win3_2.index t (1 : Fin 2) * 40 + 1 * (j 1).val = (j 1).val
    omega

/-- An index of the array is in point `t`'s block iff each coordinate is in the block's range on its axis. -/
theorem mem_blk (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v62).slice (win3_2.rect t)).set ↔ _
  rw [View.set_slice_whole, Rect.mem_set_unit]
  exact Iff.rfl

/-- Every entry is in some point's block: row `r` in block `r / 10000`. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : (i 0).val / 10000 < cfg3.N := by show _ < grid3.N; rw [N_3]; omega
  refine ⟨⟨(i 0).val / 10000, hN⟩, flush3_2 _, ?_⟩
  rw [mem_blk]
  obtain ⟨e0, e1, e2, e3, e4, e5⟩ := idx_facts ⟨(i 0).val / 10000, hN⟩
  intro a
  match a with
  | ⟨0, _⟩ =>
    show win3_2.index ⟨(i 0).val / 10000, hN⟩ (0 : Fin 2) * 10000 ≤ (i 0).val ∧ (i 0).val < win3_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hN⟩ (1 : Fin 2) * 40 ≤ (i 1).val ∧ (i 1).val < win3_2.index ⟨(i 0).val / 10000, hN⟩ (1 : Fin 2) * 40 + 40
    rw [e5]; omega

/-- The output array after the region: bias and log-softmax of the aggregated logits, whole. -/
theorem final (c : Dev nD) :
    (dat3 V c).arrAt 2 cfg3.N = Gcn.biasLogSoftmax (V c main_v60) (Gcn.rowOf (V c main_v61)) :=
  (dat3 V c).arrAt_eq_of_cover 2 _ (fun t _ => flushed_eq V c t) (cover)

end Region

end Cert.KernelIdeal.LogSoftmax

end
-- ==== Proof.Model.lean ====
/-
  The whole network as one function of the six argument arrays, over the extended reals: the edge lists with their self
  loops and the edge factor from the edge table; the first projection, aggregated, biased and rectified; the second
  projection, aggregated, biased, and the logarithm of its row softmax. Both programs are shown to end holding it.
-/
import proofs.«120204_j39230231281891_1_alg».proof.Proof.Spec
import proofs.«120204_j39230231281891_1_alg».proof.Proof.Graph

noncomputable section

namespace Cert.Gcn

open Cert.ReferenceIdeal Idealize.ShloMosaic

/-- The two-layer graph convolution with its log-softmax head. -/
def model (x : Mat 100000 512) (w1 : Mat 512 16) (b1 : Row 16) (w2 : Mat 16 40) (b2 : Row 40) (e : Graph.IArr S2x3200000) :
    Mat 100000 40 :=
  biasLogSoftmax
    (Graph.aggregate40 (Graph.withLoops (Graph.srcRow e)) (Graph.withLoops (Graph.dstRow e))
      (Graph.edgeNorm (Graph.withLoops (Graph.srcRow e)) (Graph.withLoops (Graph.dstRow e)))
      (project2
        (biasRelu
          (Graph.aggregate16 (Graph.withLoops (Graph.srcRow e)) (Graph.withLoops (Graph.dstRow e))
            (Graph.edgeNorm (Graph.withLoops (Graph.srcRow e)) (Graph.withLoops (Graph.dstRow e)))
            (project1 x w1))
          b1)
        w2))
    b2

end Cert.Gcn

end
-- ==== Proof.KernelValue.lean ====
/-
  What the idealized kernel's result buffer holds at the end of its run. The generated frame folds the buffer contents
  through the host stretches and the four regions, `Gen.W0` (the launch) to `Gen.W9`. Followed here at the few buffers
  that carry the computation: the edge lists and the edge factor from the first stretches, kept by every region and
  stretch after; the first projection (region 0) into the 16-column aggregation; bias and rectifier (region 1); the
  second projection (region 2) into the 40-column aggregation; bias and log-softmax (region 3). Each region's output
  array is its whole-array function of its input arrays at the region's entry; each stretch is the graph function of
  the buffers it reads. Together: the result buffer ends at `Gcn.model` of the six argument arrays.
-/
import proofs.«120204_j39230231281891_1_alg».proof.Proof.Gen.KernelIdeal.Frame
import proofs.«120204_j39230231281891_1_alg».proof.Proof.KernelHost
import proofs.«120204_j39230231281891_1_alg».proof.Proof.Project1
import proofs.«120204_j39230231281891_1_alg».proof.Proof.BiasRelu
import proofs.«120204_j39230231281891_1_alg».proof.Proof.Project2
import proofs.«120204_j39230231281891_1_alg».proof.Proof.LogSoftmax
import proofs.«120204_j39230231281891_1_alg».proof.Proof.Model

set_option maxRecDepth 16384

noncomputable section

namespace Cert.KernelIdeal.Network

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The sources and the destinations with their self loops, and the edge factor, of the launch's edge table. -/
abbrev src := Graph.withLoops (Graph.srcRow (m ((c : Thread nD τ).loc main_arg5)))
abbrev dst := Graph.withLoops (Graph.dstRow (m ((c : Thread nD τ).loc main_arg5)))
abbrev nrm := Graph.edgeNorm (src m c) (dst m c)

/-- A vector cast to a one-row matrix has that vector as its row. -/
theorem rowOf_shapeCast {n : ℕ} (b : (⟨1, ![n]⟩ : Shape).Idx → EReal) (h : (⟨1, ![n]⟩ : Shape).ShapeCasts ⟨2, ![1, n]⟩) :
    Gcn.rowOf (shapeCast ⟨2, ![1, n]⟩ b h) = b := by
  funext j
  obtain ⟨k, rfl⟩ : ∃ k : Fin n, j = ix1 k := ⟨j 0, eq_ix1 j⟩
  show shapeCast ⟨2, ![1, n]⟩ b h (ix2 (0 : Fin 1) k) = b (ix1 k)
  refine shapeCast_apply b h _ _ ?_
  rw [Shape.rowMajor_val_two, Shape.rowMajor_val_one]
  show k.val = 0 * n + k.val
  omega

/-! ## At the first region's entry (`Gen.W3`) -/

theorem entry_src : W3 m ρ c (Proc.devRef .tc main_v5) = src m c := Host.entry_v5 (W0 m ρ c)
theorem entry_dst : W3 m ρ c (Proc.devRef .tc main_v6) = dst m c := Host.entry_v6 (W0 m ρ c)
theorem entry_nrm : W3 m ρ c (Proc.devRef .tc main_v30) = nrm m c := Host.entry_v30 (W0 m ρ c)
theorem entry_arg0 : W3 m ρ c (Proc.devRef .tc main_arg0) = (m ((c : Thread nD τ).loc main_arg0)) := Host.entry_keeps_arg0 (W0 m ρ c)
theorem entry_arg1 : W3 m ρ c (Proc.devRef .tc main_arg1) = (m ((c : Thread nD τ).loc main_arg1)) := Host.entry_keeps_arg1 (W0 m ρ c)
theorem entry_arg2 : W3 m ρ c (Proc.devRef .tc main_arg2) = (m ((c : Thread nD τ).loc main_arg2)) := Host.entry_keeps_arg2 (W0 m ρ c)
theorem entry_arg3 : W3 m ρ c (Proc.devRef .tc main_arg3) = (m ((c : Thread nD τ).loc main_arg3)) := Host.entry_keeps_arg3 (W0 m ρ c)
theorem entry_arg4 : W3 m ρ c (Proc.devRef .tc main_arg4) = (m ((c : Thread nD τ).loc main_arg4)) := Host.entry_keeps_arg4 (W0 m ρ c)

/-! ## After the first region (`Gen.W4`): the first projection; everything else kept -/

theorem r0_out : W4 m ρ c (Proc.devRef .tc main_v31) = Gcn.project1 (m ((c : Thread nD τ).loc main_arg0)) (m ((c : Thread nD τ).loc main_arg1)) := by
  refine (W4_arr m ρ c 2).trans ((Project1.final (V3 m ρ) c).trans ?_)
  show Gcn.project1 (W3 m ρ c (Proc.devRef .tc main_arg0)) (W3 m ρ c (Proc.devRef .tc main_arg1)) = _
  rw [entry_arg0, entry_arg1]
theorem r0_src : W4 m ρ c (Proc.devRef .tc main_v5) = src m c := (W4_of_ne m ρ c main_v5 (by decide)).trans (entry_src m ρ c)
theorem r0_dst : W4 m ρ c (Proc.devRef .tc main_v6) = dst m c := (W4_of_ne m ρ c main_v6 (by decide)).trans (entry_dst m ρ c)
theorem r0_nrm : W4 m ρ c (Proc.devRef .tc main_v30) = nrm m c := (W4_of_ne m ρ c main_v30 (by decide)).trans (entry_nrm m ρ c)
theorem r0_arg2 : W4 m ρ c (Proc.devRef .tc main_arg2) = (m ((c : Thread nD τ).loc main_arg2)) := (W4_of_ne m ρ c main_arg2 (by decide)).trans (entry_arg2 m ρ c)
theorem r0_arg3 : W4 m ρ c (Proc.devRef .tc main_arg3) = (m ((c : Thread nD τ).loc main_arg3)) := (W4_of_ne m ρ c main_arg3 (by decide)).trans (entry_arg3 m ρ c)
theorem r0_arg4 : W4 m ρ c (Proc.devRef .tc main_arg4) = (m ((c : Thread nD τ).loc main_arg4)) := (W4_of_ne m ρ c main_arg4 (by decide)).trans (entry_arg4 m ρ c)

/-! ## At the second region's entry (`Gen.W5`): the aggregated features and the bias row -/

theorem h1_agg : W5 m ρ c (Proc.devRef .tc main_v44)
    = Graph.aggregate16 (src m c) (dst m c) (nrm m c) (Gcn.project1 (m ((c : Thread nD τ).loc main_arg0)) (m ((c : Thread nD τ).loc main_arg1))) := by
  refine (Host.agg_v44 (W4 m ρ c)).trans ?_
  rw [r0_src, r0_dst, r0_nrm, r0_out]
theorem h1_bias : Gcn.rowOf (W5 m ρ c (Proc.devRef .tc main_v45)) = (m ((c : Thread nD τ).loc main_arg2)) := by
  rw [show W5 m ρ c (Proc.devRef .tc main_v45) = shapeCast S1x16 (W4 m ρ c (Proc.devRef .tc main_arg2)) shapeCasts_S16_S1x16 from Host.bias_v45 (W4 m ρ c), r0_arg2]
  exact rowOf_shapeCast _ _
theorem h1_src : W5 m ρ c (Proc.devRef .tc main_v5) = src m c := (Host.mid_keeps_v5 (W4 m ρ c)).trans (r0_src m ρ c)
theorem h1_dst : W5 m ρ c (Proc.devRef .tc main_v6) = dst m c := (Host.mid_keeps_v6 (W4 m ρ c)).trans (r0_dst m ρ c)
theorem h1_nrm : W5 m ρ c (Proc.devRef .tc main_v30) = nrm m c := (Host.mid_keeps_v30 (W4 m ρ c)).trans (r0_nrm m ρ c)
theorem h1_arg3 : W5 m ρ c (Proc.devRef .tc main_arg3) = (m ((c : Thread nD τ).loc main_arg3)) := (Host.mid_keeps_arg3 (W4 m ρ c)).trans (r0_arg3 m ρ c)
theorem h1_arg4 : W5 m ρ c (Proc.devRef .tc main_arg4) = (m ((c : Thread nD τ).loc main_arg4)) := (Host.mid_keeps_arg4 (W4 m ρ c)).trans (r0_arg4 m ρ c)

/-- The hidden features: what the second region leaves. -/
abbrev hidden := Gcn.biasRelu (Graph.aggregate16 (src m c) (dst m c) (nrm m c) (Gcn.project1 (m ((c : Thread nD τ).loc main_arg0)) (m ((c : Thread nD τ).loc main_arg1)))) (m ((c : Thread nD τ).loc main_arg2))

/-! ## After the second region (`Gen.W6`) and the third (`Gen.W7`) -/

theorem r1_out : W6 m ρ c (Proc.devRef .tc main_v46) = hidden m c := by
  refine (W6_arr m ρ c 2).trans ((BiasRelu.final (V5 m ρ) c).trans ?_)
  show Gcn.biasRelu (W5 m ρ c (Proc.devRef .tc main_v44)) (Gcn.rowOf (W5 m ρ c (Proc.devRef .tc main_v45))) = _
  rw [h1_agg, h1_bias]
theorem r1_src : W6 m ρ c (Proc.devRef .tc main_v5) = src m c := (W6_of_ne m ρ c main_v5 (by decide)).trans (h1_src m ρ c)
theorem r1_dst : W6 m ρ c (Proc.devRef .tc main_v6) = dst m c := (W6_of_ne m ρ c main_v6 (by decide)).trans (h1_dst m ρ c)
theorem r1_nrm : W6 m ρ c (Proc.devRef .tc main_v30) = nrm m c := (W6_of_ne m ρ c main_v30 (by decide)).trans (h1_nrm m ρ c)
theorem r1_arg3 : W6 m ρ c (Proc.devRef .tc main_arg3) = (m ((c : Thread nD τ).loc main_arg3)) := (W6_of_ne m ρ c main_arg3 (by decide)).trans (h1_arg3 m ρ c)
theorem r1_arg4 : W6 m ρ c (Proc.devRef .tc main_arg4) = (m ((c : Thread nD τ).loc main_arg4)) := (W6_of_ne m ρ c main_arg4 (by decide)).trans (h1_arg4 m ρ c)

theorem r2_out : W7 m ρ c (Proc.devRef .tc main_v47) = Gcn.project2 (hidden m c) (m ((c : Thread nD τ).loc main_arg3)) := by
  refine (W7_arr m ρ c 2).trans ((Project2.final (V6 m ρ) c).trans ?_)
  show Gcn.project2 (W6 m ρ c (Proc.devRef .tc main_v46)) (W6 m ρ c (Proc.devRef .tc main_arg3)) = _
  rw [r1_out, r1_arg3]
theorem r2_src : W7 m ρ c (Proc.devRef .tc main_v5) = src m c := (W7_of_ne m ρ c main_v5 (by decide)).trans (r1_src m ρ c)
theorem r2_dst : W7 m ρ c (Proc.devRef .tc main_v6) = dst m c := (W7_of_ne m ρ c main_v6 (by decide)).trans (r1_dst m ρ c)
theorem r2_nrm : W7 m ρ c (Proc.devRef .tc main_v30) = nrm m c := (W7_of_ne m ρ c main_v30 (by decide)).trans (r1_nrm m ρ c)
theorem r2_arg4 : W7 m ρ c (Proc.devRef .tc main_arg4) = (m ((c : Thread nD τ).loc main_arg4)) := (W7_of_ne m ρ c main_arg4 (by decide)).trans (r1_arg4 m ρ c)

/-! ## At the fourth region's entry (`Gen.W8`) and after it (`Gen.W9`) -/

theorem h3_agg : W8 m ρ c (Proc.devRef .tc main_v60)
    = Graph.aggregate40 (src m c) (dst m c) (nrm m c) (Gcn.project2 (hidden m c) (m ((c : Thread nD τ).loc main_arg3))) := by
  refine (Host.agg_v60 (W7 m ρ c)).trans ?_
  rw [r2_src, r2_dst, r2_nrm, r2_out]
theorem h3_bias : Gcn.rowOf (W8 m ρ c (Proc.devRef .tc main_v61)) = (m ((c : Thread nD τ).loc main_arg4)) := by
  rw [show W8 m ρ c (Proc.devRef .tc main_v61) = shapeCast S1x40 (W7 m ρ c (Proc.devRef .tc main_arg4)) shapeCasts_S40_S1x40 from Host.bias_v61 (W7 m ρ c), r2_arg4]
  exact rowOf_shapeCast _ _

/-- The result buffer at the end of the fold: the whole network of the six argument arrays. -/
theorem result : W9 m ρ c (Proc.devRef .tc main_v62)
    = Gcn.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((LogSoftmax.final (V8 m ρ) c).trans ?_)
  show Gcn.biasLogSoftmax (W8 m ρ c (Proc.devRef .tc main_v60)) (Gcn.rowOf (W8 m ρ c (Proc.devRef .tc main_v61))) = _
  rw [h3_agg, h3_bias]
  rfl

end Cert.KernelIdeal.Network

end
-- ==== Proof.RefHost.lean ====
/-
  The idealized reference's run, read back stretch by stretch. The reference is a straight line of 138 host
  operations; every weakly fair execution ends with each buffer at the fold of the operations' results over the launch
  contents. The fold is cut into ten stretches, each read from ANY buffer contents `W` as a function of the few
  buffers it reads, in the graph functions of `Graph.lean` and the reference's own dense stages: the projections as
  host products, the biases broadcast over the rows, the rectifier, and the logarithm of the row softmax as jax
  spells it (the row maximum, taken once more against `-∞`, subtracted; the exponentials summed; the logarithm
  subtracted). A buffer a stretch does not write keeps its contents. The reference computes the edge lists and the
  edge factor twice, once per layer, by the same operations.
-/
import proofs.«120204_j39230231281891_1_alg».proof.Proof.RefRun
import proofs.«120204_j39230231281891_1_alg».proof.Proof.Graph
import Idealize.ShloMosaic.Lib.StableHlo.Run

set_option maxRecDepth 16384

noncomputable section

namespace Cert.ReferenceIdeal.Host

open Cert.ReferenceIdeal Cert.ReferenceIdeal.Gen Cert.ReferenceIdeal.ValueP
open Idealize.ShloMosaic Idealize.ShloMosaic.TcCoe Idealize.SL.Sem Idealize.ShloMosaic.StableHlo

/-! ## The reference's dense stages -/

/-- The first projection, as the host's product. -/
def hostProject1 (x : FVec Ideal S100000x512 .f32) (w : FVec Ideal S512x16 .f32) : FVec Ideal S100000x16 .f32 :=
  Host.dotGeneral dot_S100000x512_S512x16_S100000x16_1_0_0_1_n_n none x w

/-- The second projection, as the host's product. -/
def hostProject2 (h : FVec Ideal S100000x16 .f32) (w : FVec Ideal S16x40 .f32) : FVec Ideal S100000x40 .f32 :=
  Host.dotGeneral dot_S100000x16_S16x40_S100000x40_1_0_0_1_n_n none h w

/-- The first bias, as one row, broadcast over the rows. -/
def hostBias16 (b : FVec Ideal S16 .f32) : FVec Ideal S100000x16 .f32 :=
  broadcastInDim S100000x16 ![0, 1] bcast_S1x16_S100000x16_0_1 (broadcastInDim S1x16 ![1] bcast_S16_S1x16_1 b)

/-- The second bias, as one row, broadcast over the rows. -/
def hostBias40 (b : FVec Ideal S40 .f32) : FVec Ideal S100000x40 .f32 :=
  broadcastInDim S100000x40 ![0, 1] bcast_S1x40_S100000x40_0_1 (broadcastInDim S1x40 ![1] bcast_S40_S1x40_1 b)

/-- The rectifier. -/
def hostRelu (a : FVec Ideal S100000x16 .f32) : FVec Ideal S100000x16 .f32 :=
  maximumf a (broadcastInDim S100000x16 ![] bcast_S_S100000x16 (constant (F := Ideal) S_ .f32 0x00000000#32))

/-- The row maximum, taken once more against `-∞`. -/
def hostRowMax (z : FVec Ideal S100000x40 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x40_S100000_d1 h_S_)

/-- The logits minus their row maximum. -/
def hostShifted (z : FVec Ideal S100000x40 .f32) : FVec Ideal S100000x40 .f32 :=
  subf z (broadcastInDim S100000x40 ![0, 1] bcast_S100000x1_S100000x40_0_1 (broadcastInDim S100000x1 ![0] bcast_S100000_S100000x1_0 (hostRowMax z)))

/-- The logarithm of the row softmax. -/
def hostLogSoftmax (z : FVec Ideal S100000x40 .f32) : FVec Ideal S100000x40 .f32 :=
  subf (hostShifted z) (broadcastInDim S100000x40 ![0, 1] bcast_S100000x1_S100000x40_0_1
    (Host.log (broadcastInDim S100000x1 ![0] bcast_S100000_S100000x1_0
      (Host.reduceAdd (Host.exp (hostShifted z)) (constant (F := Ideal) S_ .f32 0x00000000#32) reducesTo_S100000x40_S100000_d1 h_S_))))

variable {F : FTy → Type} [FloatOps F]

/-! ## The line's ten stretches: the operations of `ops`, in order, under ten names -/

/-- Operations 0 to 7. -/
abbrev opsA : List (HloOp τ sig (Elt F)) :=
  [ unary main_arg5 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg5 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg1 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 8 to 20. -/
abbrev opsB : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32) ]

/-- Operations 21 to 23. -/
abbrev opsC : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v15) (TRef.of (T := ⟨S100000, .f32⟩) main_call0_v1) (TRef.of (T := ⟨S100000, .f32⟩) main_v16) select ]

/-- Operations 24 to 61. -/
abbrev opsD : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v6 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v6 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v6 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v7 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v7 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v7 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    unary main_v31 main_v32 (broadcastInDim S3300000x1 ![0] bcast_S3300000_S3300000x1_0 : (⟨S3300000, .f32⟩ : BufTy).Contents (Elt F) → (⟨S3300000x1, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v6 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v6 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v4 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v39 main_v41 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v42 (broadcastInDim S100000x16 ![] bcast_S_S100000x16 : (⟨S_, .f32⟩ : BufTy).Contents (Elt F) → (⟨S100000x16, .f32⟩ : BufTy).Contents (Elt F)),
    unary main_v7 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg2 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)) ]

/-- Operations 62 to 64. -/
abbrev opsE : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- Operations 65 to 68. -/
abbrev opsF : List (HloOp τ sig (Elt F)) :=
  [ binary main_v48 main_arg3 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_v50 (iotaInDim S100000 32 0),
    binary main_v1 main_v50 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v50 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Operations 69 to 81. -/
abbrev opsG : List (HloOp τ sig (Elt F)) :=
  [ nullary main_cst_10 (constant S_ .f32 0x3F800000#32),
    unary main_cst_10 main_v53 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v54 (broadcastInDim S100000 ![] bcast_S_S100000 : (⟨S_, .f32⟩ : BufTy).Contents (Elt F) → (⟨S100000, .f32⟩ : BufTy).Contents (Elt F)),
    unary main_v52 main_v55 (broadcastInDim S3300000x1 ![0] bcast_S3300000_S3300000x1_0 : (⟨S3300000, .i32⟩ : BufTy).Contents (Elt F) → (⟨S3300000x1, .i32⟩ : BufTy).Contents (Elt F)),
    ternary main_v54 main_v55 main_v53 main_v56 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v57 (broadcastInDim S100000 ![] bcast_S_S100000 : (⟨S_, .f32⟩ : BufTy).Contents (Elt F) → (⟨S100000, .f32⟩ : BufTy).Contents (Elt F)),
    binary main_v56 main_v57 main_v58 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0xBF000000#32),
    unary main_cst_13 main_v59 (broadcastInDim S100000 ![] bcast_S_S100000 : (⟨S_, .f32⟩ : BufTy).Contents (Elt F) → (⟨S100000, .f32⟩ : BufTy).Contents (Elt F)),
    binary main_v56 main_v59 main_v60 (Host.powf : (⟨S100000, .f32⟩ : BufTy).Contents (Elt F) → (⟨S100000, .f32⟩ : BufTy).Contents (Elt F) → (⟨S100000, .f32⟩ : BufTy).Contents (Elt F)),
    nullary main_cst_14 (constant S_ .f32 0x00000000#32) ]

/-- Operations 82 to 84. -/
abbrev opsH : List (HloOp τ sig (Elt F)) :=
  [ TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v58) (TRef.of (T := ⟨S100000, .f32⟩) main_v60) (TRef.of (T := ⟨S100000, .f32⟩) main_call2_v1) (TRef.of (T := ⟨S100000, .f32⟩) main_v61) select ]

/-- Operations 85 to 122. -/
abbrev opsI : List (HloOp τ sig (Elt F)) :=
  [ nullary main_c_15 (constantI S_ 32 0#32),
    unary main_c_15 main_v62 (broadcastInDim S3300000 ![] bcast_S_S3300000 : (⟨S_, .i32⟩ : BufTy).Contents (Elt F) → (⟨S3300000, .i32⟩ : BufTy).Contents (Elt F)),
    binary main_v51 main_v62 main_v63 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v64 (broadcastInDim S3300000 ![] bcast_S_S3300000 : (⟨S_, .i32⟩ : BufTy).Contents (Elt F) → (⟨S3300000, .i32⟩ : BufTy).Contents (Elt F)),
    binary main_v51 main_v64 main_v65 (addi : (⟨S3300000, .i32⟩ : BufTy).Contents (Elt F) → (⟨S3300000, .i32⟩ : BufTy).Contents (Elt F) → (⟨S3300000, .i32⟩ : BufTy).Contents (Elt F)),
    ternary main_v63 main_v65 main_v51 main_v66 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v66 main_v67 (broadcastInDim S3300000x1 ![0] bcast_S3300000_S3300000x1_0 : (⟨S3300000, .i32⟩ : BufTy).Contents (Elt F) → (⟨S3300000x1, .i32⟩ : BufTy).Contents (Elt F)),
    binary main_v61 main_v67 main_v68 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v69 (broadcastInDim S3300000 ![] bcast_S_S3300000 : (⟨S_, .i32⟩ : BufTy).Contents (Elt F) → (⟨S3300000, .i32⟩ : BufTy).Contents (Elt F)),
    binary main_v52 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v71 (broadcastInDim S3300000 ![] bcast_S_S3300000 : (⟨S_, .i32⟩ : BufTy).Contents (Elt F) → (⟨S3300000, .i32⟩ : BufTy).Contents (Elt F)),
    binary main_v52 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v52 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v61 main_v74 main_v75 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v68 main_v75 main_v76 (mulf : (⟨S3300000, .f32⟩ : BufTy).Contents (Elt F) → (⟨S3300000, .f32⟩ : BufTy).Contents (Elt F) → (⟨S3300000, .f32⟩ : BufTy).Contents (Elt F)),
    unary main_v76 main_v77 (broadcastInDim S3300000x1 ![0] bcast_S3300000_S3300000x1_0 : (⟨S3300000, .f32⟩ : BufTy).Contents (Elt F) → (⟨S3300000x1, .f32⟩ : BufTy).Contents (Elt F)),
    nullary main_c_19 (constantI S_ 32 0#32),
    unary main_c_19 main_v78 (broadcastInDim S3300000 ![] bcast_S_S3300000 : (⟨S_, .i32⟩ : BufTy).Contents (Elt F) → (⟨S3300000, .i32⟩ : BufTy).Contents (Elt F)),
    binary main_v51 main_v78 main_v79 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v80 (broadcastInDim S3300000 ![] bcast_S_S3300000 : (⟨S_, .i32⟩ : BufTy).Contents (Elt F) → (⟨S3300000, .i32⟩ : BufTy).Contents (Elt F)),
    binary main_v51 main_v80 main_v81 (addi : (⟨S3300000, .i32⟩ : BufTy).Contents (Elt F) → (⟨S3300000, .i32⟩ : BufTy).Contents (Elt F) → (⟨S3300000, .i32⟩ : BufTy).Contents (Elt F)),
    ternary main_v79 main_v81 main_v51 main_v82 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v82 main_v83 (broadcastInDim S3300000x1 ![0] bcast_S3300000_S3300000x1_0 : (⟨S3300000, .i32⟩ : BufTy).Contents (Elt F) → (⟨S3300000x1, .i32⟩ : BufTy).Contents (Elt F)),
    binary main_v49 main_v83 main_v84 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v77 main_v85 (broadcastInDim S3300000x40 ![0, 1] bcast_S3300000x1_S3300000x40_0_1 : (⟨S3300000x1, .f32⟩ : BufTy).Contents (Elt F) → (⟨S3300000x40, .f32⟩ : BufTy).Contents (Elt F)),
    binary main_v85 main_v84 main_v86 (mulf : (⟨S3300000x40, .f32⟩ : BufTy).Contents (Elt F) → (⟨S3300000x40, .f32⟩ : BufTy).Contents (Elt F) → (⟨S3300000x40, .f32⟩ : BufTy).Contents (Elt F)),
    nullary main_cst_21 (constant S_ .f32 0x00000000#32),
    unary main_cst_21 main_v87 (broadcastInDim S100000x40 ![] bcast_S_S100000x40 : (⟨S_, .f32⟩ : BufTy).Contents (Elt F) → (⟨S100000x40, .f32⟩ : BufTy).Contents (Elt F)),
    unary main_v52 main_v88 (broadcastInDim S3300000x1 ![0] bcast_S3300000_S3300000x1_0 : (⟨S3300000, .i32⟩ : BufTy).Contents (Elt F) → (⟨S3300000x1, .i32⟩ : BufTy).Contents (Elt F)),
    ternary main_v87 main_v88 main_v86 main_v89 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg4 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)) ]

/-- Operations 123 to 137. -/
abbrev opsJ : List (HloOp τ sig (Elt F)) :=
  [ TRef.nullary (TRef.of (T := ⟨S_, .f32⟩) main_call3_cst) (constant S_ .f32 0xFF800000#32),
    TRef.binary (TRef.of (T := ⟨S100000x40, .f32⟩) main_v92) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v92) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v93) subf ]

/-! ## Each stretch read from any contents -/

/-! ### Operations 0 to 7 -/

theorem src_v1 (W : Valuation τ sig (Elt Ideal)) :
    after (opsA (F := Ideal)) W (Proc.devRef .tc main_v1) = Graph.srcRow (W (Proc.devRef .tc main_arg5)) := by
  simp only [opsA]
  after_results
  rfl
theorem dst_v3 (W : Valuation τ sig (Elt Ideal)) :
    after (opsA (F := Ideal)) W (Proc.devRef .tc main_v3) = Graph.dstRow (W (Proc.devRef .tc main_arg5)) := by
  simp only [opsA]
  after_results
  rfl
theorem proj_v4 (W : Valuation τ sig (Elt Ideal)) :
    after (opsA (F := Ideal)) W (Proc.devRef .tc main_v4) = hostProject1 (W (Proc.devRef .tc main_arg0)) (W (Proc.devRef .tc main_arg1)) := by
  simp only [opsA]
  after_results
  rfl
theorem src_v6 (W : Valuation τ sig (Elt Ideal)) :
    after (opsA (F := Ideal)) W (Proc.devRef .tc main_v6) = Graph.withLoops (Graph.srcRow (W (Proc.devRef .tc main_arg5))) := by
  simp only [opsA]
  after_results
  rfl
theorem dst_v7 (W : Valuation τ sig (Elt Ideal)) :
    after (opsA (F := Ideal)) W (Proc.devRef .tc main_v7) = Graph.withLoops (Graph.dstRow (W (Proc.devRef .tc main_arg5))) := by
  simp only [opsA]
  after_results
  rfl
theorem A_keeps_arg2 (W : Valuation τ sig (Elt Ideal)) :
    after (opsA (F := Ideal)) W (Proc.devRef .tc main_arg2) = W (Proc.devRef .tc main_arg2) := by
  simp only [opsA]
  after_results
theorem A_keeps_arg3 (W : Valuation τ sig (Elt Ideal)) :
    after (opsA (F := Ideal)) W (Proc.devRef .tc main_arg3) = W (Proc.devRef .tc main_arg3) := by
  simp only [opsA]
  after_results
theorem A_keeps_arg4 (W : Valuation τ sig (Elt Ideal)) :
    after (opsA (F := Ideal)) W (Proc.devRef .tc main_arg4) = W (Proc.devRef .tc main_arg4) := by
  simp only [opsA]
  after_results

/-! ### Operations 8 to 20 -/

theorem pos_v13 (W : Valuation τ sig (Elt Ideal)) :
    after (opsB (F := Ideal)) W (Proc.devRef .tc main_v13) = Graph.positiveDegree (W (Proc.devRef .tc main_v7)) := by
  simp only [opsB]
  after_results
  rfl
theorem pow_v15 (W : Valuation τ sig (Elt Ideal)) :
    after (opsB (F := Ideal)) W (Proc.devRef .tc main_v15) = Graph.degreePow (W (Proc.devRef .tc main_v7)) := by
  simp only [opsB]
  after_results
  rfl
theorem zero_cst3 (W : Valuation τ sig (Elt Ideal)) :
    after (opsB (F := Ideal)) W (Proc.devRef .tc main_cst_3) = Graph.zeroScalar := by
  simp only [opsB]
  after_results
  rfl
theorem B_keeps_v1 (W : Valuation τ sig (Elt Ideal)) :
    after (opsB (F := Ideal)) W (Proc.devRef .tc main_v1) = W (Proc.devRef .tc main_v1) := by
  simp only [opsB]
  after_results
theorem B_keeps_v3 (W : Valuation τ sig (Elt Ideal)) :
    after (opsB (F := Ideal)) W (Proc.devRef .tc main_v3) = W (Proc.devRef .tc main_v3) := by
  simp only [opsB]
  after_results
theorem B_keeps_v4 (W : Valuation τ sig (Elt Ideal)) :
    after (opsB (F := Ideal)) W (Proc.devRef .tc main_v4) = W (Proc.devRef .tc main_v4) := by
  simp only [opsB]
  after_results
theorem B_keeps_v6 (W : Valuation τ sig (Elt Ideal)) :
    after (opsB (F := Ideal)) W (Proc.devRef .tc main_v6) = W (Proc.devRef .tc main_v6) := by
  simp only [opsB]
  after_results
theorem B_keeps_v7 (W : Valuation τ sig (Elt Ideal)) :
    after (opsB (F := Ideal)) W (Proc.devRef .tc main_v7) = W (Proc.devRef .tc main_v7) := by
  simp only [opsB]
  after_results
theorem B_keeps_arg2 (W : Valuation τ sig (Elt Ideal)) :
    after (opsB (F := Ideal)) W (Proc.devRef .tc main_arg2) = W (Proc.devRef .tc main_arg2) := by
  simp only [opsB]
  after_results
theorem B_keeps_arg3 (W : Valuation τ sig (Elt Ideal)) :
    after (opsB (F := Ideal)) W (Proc.devRef .tc main_arg3) = W (Proc.devRef .tc main_arg3) := by
  simp only [opsB]
  after_results
theorem B_keeps_arg4 (W : Valuation τ sig (Elt Ideal)) :
    after (opsB (F := Ideal)) W (Proc.devRef .tc main_arg4) = W (Proc.devRef .tc main_arg4) := by
  simp only [opsB]
  after_results

/-! ### Operations 21 to 23 -/

theorem factor_v16 (W : Valuation τ sig (Elt Ideal)) :
    after (opsC (F := Ideal)) W (Proc.devRef .tc main_v16) = Graph.pickFactor (W (Proc.devRef .tc main_v13)) (W (Proc.devRef .tc main_v15)) (W (Proc.devRef .tc main_cst_3)) := by
  simp only [opsC]
  after_results
  simp only [cast_eq]
  rfl
theorem C_keeps_v1 (W : Valuation τ sig (Elt Ideal)) :
    after (opsC (F := Ideal)) W (Proc.devRef .tc main_v1) = W (Proc.devRef .tc main_v1) := by
  simp only [opsC]
  after_results
theorem C_keeps_v3 (W : Valuation τ sig (Elt Ideal)) :
    after (opsC (F := Ideal)) W (Proc.devRef .tc main_v3) = W (Proc.devRef .tc main_v3) := by
  simp only [opsC]
  after_results
theorem C_keeps_v4 (W : Valuation τ sig (Elt Ideal)) :
    after (opsC (F := Ideal)) W (Proc.devRef .tc main_v4) = W (Proc.devRef .tc main_v4) := by
  simp only [opsC]
  after_results
theorem C_keeps_v6 (W : Valuation τ sig (Elt Ideal)) :
    after (opsC (F := Ideal)) W (Proc.devRef .tc main_v6) = W (Proc.devRef .tc main_v6) := by
  simp only [opsC]
  after_results
theorem C_keeps_v7 (W : Valuation τ sig (Elt Ideal)) :
    after (opsC (F := Ideal)) W (Proc.devRef .tc main_v7) = W (Proc.devRef .tc main_v7) := by
  simp only [opsC]
  after_results
theorem C_keeps_arg2 (W : Valuation τ sig (Elt Ideal)) :
    after (opsC (F := Ideal)) W (Proc.devRef .tc main_arg2) = W (Proc.devRef .tc main_arg2) := by
  simp only [opsC]
  after_results
theorem C_keeps_arg3 (W : Valuation τ sig (Elt Ideal)) :
    after (opsC (F := Ideal)) W (Proc.devRef .tc main_arg3) = W (Proc.devRef .tc main_arg3) := by
  simp only [opsC]
  after_results
theorem C_keeps_arg4 (W : Valuation τ sig (Elt Ideal)) :
    after (opsC (F := Ideal)) W (Proc.devRef .tc main_arg4) = W (Proc.devRef .tc main_arg4) := by
  simp only [opsC]
  after_results

/-! ### Operations 24 to 61 -/

set_option maxHeartbeats 4000000 in
theorem layer1_v47 (W : Valuation τ sig (Elt Ideal)) :
    after (opsD (F := Ideal)) W (Proc.devRef .tc main_v47) = addf (Graph.aggregate16 (W (Proc.devRef .tc main_v6)) (W (Proc.devRef .tc main_v7)) (Graph.edgeNormOf (W (Proc.devRef .tc main_v16)) (W (Proc.devRef .tc main_v6)) (W (Proc.devRef .tc main_v7))) (W (Proc.devRef .tc main_v4))) (hostBias16 (W (Proc.devRef .tc main_arg2))) := by
  simp only [opsD]
  after_results_simp
  rfl
theorem D_keeps_v1 (W : Valuation τ sig (Elt Ideal)) :
    after (opsD (F := Ideal)) W (Proc.devRef .tc main_v1) = W (Proc.devRef .tc main_v1) := by
  simp only [opsD]
  after_results
theorem D_keeps_v3 (W : Valuation τ sig (Elt Ideal)) :
    after (opsD (F := Ideal)) W (Proc.devRef .tc main_v3) = W (Proc.devRef .tc main_v3) := by
  simp only [opsD]
  after_results
theorem D_keeps_arg3 (W : Valuation τ sig (Elt Ideal)) :
    after (opsD (F := Ideal)) W (Proc.devRef .tc main_arg3) = W (Proc.devRef .tc main_arg3) := by
  simp only [opsD]
  after_results
theorem D_keeps_arg4 (W : Valuation τ sig (Elt Ideal)) :
    after (opsD (F := Ideal)) W (Proc.devRef .tc main_arg4) = W (Proc.devRef .tc main_arg4) := by
  simp only [opsD]
  after_results

/-! ### Operations 62 to 64 -/

theorem relu_v48 (W : Valuation τ sig (Elt Ideal)) :
    after (opsE (F := Ideal)) W (Proc.devRef .tc main_v48) = hostRelu (W (Proc.devRef .tc main_v47)) := by
  simp only [opsE]
  after_results
  simp only [cast_eq]
  rfl
theorem E_keeps_v1 (W : Valuation τ sig (Elt Ideal)) :
    after (opsE (F := Ideal)) W (Proc.devRef .tc main_v1) = W (Proc.devRef .tc main_v1) := by
  simp only [opsE]
  after_results
theorem E_keeps_v3 (W : Valuation τ sig (Elt Ideal)) :
    after (opsE (F := Ideal)) W (Proc.devRef .tc main_v3) = W (Proc.devRef .tc main_v3) := by
  simp only [opsE]
  after_results
theorem E_keeps_arg3 (W : Valuation τ sig (Elt Ideal)) :
    after (opsE (F := Ideal)) W (Proc.devRef .tc main_arg3) = W (Proc.devRef .tc main_arg3) := by
  simp only [opsE]
  after_results
theorem E_keeps_arg4 (W : Valuation τ sig (Elt Ideal)) :
    after (opsE (F := Ideal)) W (Proc.devRef .tc main_arg4) = W (Proc.devRef .tc main_arg4) := by
  simp only [opsE]
  after_results

/-! ### Operations 65 to 68 -/

theorem proj_v49 (W : Valuation τ sig (Elt Ideal)) :
    after (opsF (F := Ideal)) W (Proc.devRef .tc main_v49) = hostProject2 (W (Proc.devRef .tc main_v48)) (W (Proc.devRef .tc main_arg3)) := by
  simp only [opsF]
  after_results
  rfl
theorem src_v51 (W : Valuation τ sig (Elt Ideal)) :
    after (opsF (F := Ideal)) W (Proc.devRef .tc main_v51) = Graph.withLoops (W (Proc.devRef .tc main_v1)) := by
  simp only [opsF]
  after_results
  rfl
theorem dst_v52 (W : Valuation τ sig (Elt Ideal)) :
    after (opsF (F := Ideal)) W (Proc.devRef .tc main_v52) = Graph.withLoops (W (Proc.devRef .tc main_v3)) := by
  simp only [opsF]
  after_results
  rfl
theorem F_keeps_arg4 (W : Valuation τ sig (Elt Ideal)) :
    after (opsF (F := Ideal)) W (Proc.devRef .tc main_arg4) = W (Proc.devRef .tc main_arg4) := by
  simp only [opsF]
  after_results

/-! ### Operations 69 to 81 -/

theorem pos_v58 (W : Valuation τ sig (Elt Ideal)) :
    after (opsG (F := Ideal)) W (Proc.devRef .tc main_v58) = Graph.positiveDegree (W (Proc.devRef .tc main_v52)) := by
  simp only [opsG]
  after_results
  rfl
theorem pow_v60 (W : Valuation τ sig (Elt Ideal)) :
    after (opsG (F := Ideal)) W (Proc.devRef .tc main_v60) = Graph.degreePow (W (Proc.devRef .tc main_v52)) := by
  simp only [opsG]
  after_results
  rfl
theorem zero_cst14 (W : Valuation τ sig (Elt Ideal)) :
    after (opsG (F := Ideal)) W (Proc.devRef .tc main_cst_14) = Graph.zeroScalar := by
  simp only [opsG]
  after_results
  rfl
theorem G_keeps_v49 (W : Valuation τ sig (Elt Ideal)) :
    after (opsG (F := Ideal)) W (Proc.devRef .tc main_v49) = W (Proc.devRef .tc main_v49) := by
  simp only [opsG]
  after_results
theorem G_keeps_v51 (W : Valuation τ sig (Elt Ideal)) :
    after (opsG (F := Ideal)) W (Proc.devRef .tc main_v51) = W (Proc.devRef .tc main_v51) := by
  simp only [opsG]
  after_results
theorem G_keeps_v52 (W : Valuation τ sig (Elt Ideal)) :
    after (opsG (F := Ideal)) W (Proc.devRef .tc main_v52) = W (Proc.devRef .tc main_v52) := by
  simp only [opsG]
  after_results
theorem G_keeps_arg4 (W : Valuation τ sig (Elt Ideal)) :
    after (opsG (F := Ideal)) W (Proc.devRef .tc main_arg4) = W (Proc.devRef .tc main_arg4) := by
  simp only [opsG]
  after_results

/-! ### Operations 82 to 84 -/

theorem factor_v61 (W : Valuation τ sig (Elt Ideal)) :
    after (opsH (F := Ideal)) W (Proc.devRef .tc main_v61) = Graph.pickFactor (W (Proc.devRef .tc main_v58)) (W (Proc.devRef .tc main_v60)) (W (Proc.devRef .tc main_cst_14)) := by
  simp only [opsH]
  after_results
  simp only [cast_eq]
  rfl
theorem H_keeps_v49 (W : Valuation τ sig (Elt Ideal)) :
    after (opsH (F := Ideal)) W (Proc.devRef .tc main_v49) = W (Proc.devRef .tc main_v49) := by
  simp only [opsH]
  after_results
theorem H_keeps_v51 (W : Valuation τ sig (Elt Ideal)) :
    after (opsH (F := Ideal)) W (Proc.devRef .tc main_v51) = W (Proc.devRef .tc main_v51) := by
  simp only [opsH]
  after_results
theorem H_keeps_v52 (W : Valuation τ sig (Elt Ideal)) :
    after (opsH (F := Ideal)) W (Proc.devRef .tc main_v52) = W (Proc.devRef .tc main_v52) := by
  simp only [opsH]
  after_results
theorem H_keeps_arg4 (W : Valuation τ sig (Elt Ideal)) :
    after (opsH (F := Ideal)) W (Proc.devRef .tc main_arg4) = W (Proc.devRef .tc main_arg4) := by
  simp only [opsH]
  after_results

/-! ### Operations 85 to 122 -/

set_option maxHeartbeats 4000000 in
theorem layer2_v92 (W : Valuation τ sig (Elt Ideal)) :
    after (opsI (F := Ideal)) W (Proc.devRef .tc main_v92) = addf (Graph.aggregate40 (W (Proc.devRef .tc main_v51)) (W (Proc.devRef .tc main_v52)) (Graph.edgeNormOf (W (Proc.devRef .tc main_v61)) (W (Proc.devRef .tc main_v51)) (W (Proc.devRef .tc main_v52))) (W (Proc.devRef .tc main_v49))) (hostBias40 (W (Proc.devRef .tc main_arg4))) := by
  simp only [opsI]
  after_results_simp
  rfl

/-! ### Operations 123 to 137 -/

/-- Contents written at a buffer's own type and read back are themselves. -/
theorem ofBuf_toBuf {T : BufTy} (x : TRef sig T) (v : T.Contents (Elt Ideal)) : x.ofBuf (x.toBuf v) = v := by
  obtain ⟨r, h, d, u⟩ := x
  subst h
  rfl

/-- The logits' and the result's buffers read at their own types. -/
theorem read_v92 (y : (Proc.devRef (τ := τ) .tc main_v92).ty.Contents (Elt Ideal)) :
    (TRef.of (T := ⟨S100000x40, .f32⟩) main_v92).ofBuf y = y := rfl
theorem read_v93 (y : (Proc.devRef (τ := τ) .tc main_v93).ty.Contents (Elt Ideal)) :
    (TRef.of (T := ⟨S100000x40, .f32⟩) main_v93).ofBuf y = y := rfl

/-- The log-softmax stretch, each buffer read at its own type. -/
theorem lsm_typed (W : Valuation τ sig (Elt Ideal)) :
    (TRef.of (T := ⟨S100000x40, .f32⟩) main_v93).ofBuf (after (opsJ (F := Ideal)) W (Proc.devRef .tc main_v93))
      = hostLogSoftmax ((TRef.of (T := ⟨S100000x40, .f32⟩) main_v92).ofBuf (W (Proc.devRef .tc main_v92))) := by
  simp only [opsJ]
  after_results
  repeat rw [ofBuf_toBuf]
  unfold hostLogSoftmax hostShifted hostRowMax
  with_reducible rfl

theorem lsm_v93 (W : Valuation τ sig (Elt Ideal)) :
    after (opsJ (F := Ideal)) W (Proc.devRef .tc main_v93) = hostLogSoftmax (W (Proc.devRef .tc main_v92)) := by
  rw [← read_v93 (after (opsJ (F := Ideal)) W (Proc.devRef .tc main_v93)), lsm_typed, read_v92]

/-! ## The whole line -/

/-- The 138 operations are the ten stretches in order. -/
theorem cuts (W : Valuation τ sig (Elt Ideal)) :
    after (ops (F := Ideal)) W
      = after (opsJ (F := Ideal)) (after (opsI (F := Ideal)) (after (opsH (F := Ideal)) (after (opsG (F := Ideal)) (after (opsF (F := Ideal))
          (after (opsE (F := Ideal)) (after (opsD (F := Ideal)) (after (opsC (F := Ideal)) (after (opsB (F := Ideal)) (after (opsA (F := Ideal)) W))))))))) := rfl

/-- What the result buffer holds after the line, from any launch contents `W`: the reference's dense stages around the
    graph functions, of the six argument buffers. -/
def value (W : Valuation τ sig (Elt Ideal)) : FVec Ideal S100000x40 .f32 :=
  hostLogSoftmax (addf
    (Graph.aggregate40 (Graph.withLoops (Graph.srcRow (W (Proc.devRef .tc main_arg5)))) (Graph.withLoops (Graph.dstRow (W (Proc.devRef .tc main_arg5))))
      (Graph.edgeNorm (Graph.withLoops (Graph.srcRow (W (Proc.devRef .tc main_arg5)))) (Graph.withLoops (Graph.dstRow (W (Proc.devRef .tc main_arg5)))))
      (hostProject2
        (hostRelu (addf
          (Graph.aggregate16 (Graph.withLoops (Graph.srcRow (W (Proc.devRef .tc main_arg5)))) (Graph.withLoops (Graph.dstRow (W (Proc.devRef .tc main_arg5))))
            (Graph.edgeNorm (Graph.withLoops (Graph.srcRow (W (Proc.devRef .tc main_arg5)))) (Graph.withLoops (Graph.dstRow (W (Proc.devRef .tc main_arg5)))))
            (hostProject1 (W (Proc.devRef .tc main_arg0)) (W (Proc.devRef .tc main_arg1))))
          (hostBias16 (W (Proc.devRef .tc main_arg2)))))
        (W (Proc.devRef .tc main_arg3))))
    (hostBias40 (W (Proc.devRef .tc main_arg4))))

theorem result (W : Valuation τ sig (Elt Ideal)) :
    after (ops (F := Ideal)) W (Proc.devRef .tc main_v93) = value W := by
  rw [cuts, lsm_v93, layer2_v92,
    factor_v61, H_keeps_v51, H_keeps_v52, H_keeps_v49, H_keeps_arg4,
    pos_v58, pow_v60, zero_cst14, G_keeps_v51, G_keeps_v52, G_keeps_v49, G_keeps_arg4,
    src_v51, dst_v52, proj_v49, F_keeps_arg4,
    relu_v48, E_keeps_v1, E_keeps_v3, E_keeps_arg3, E_keeps_arg4,
    layer1_v47, D_keeps_v1, D_keeps_v3, D_keeps_arg3, D_keeps_arg4,
    factor_v16, C_keeps_v6, C_keeps_v7, C_keeps_v4, C_keeps_arg2, C_keeps_v1, C_keeps_v3, C_keeps_arg3, C_keeps_arg4,
    pos_v13, pow_v15, zero_cst3, B_keeps_v6, B_keeps_v7, B_keeps_v4, B_keeps_arg2, B_keeps_v1, B_keeps_v3, B_keeps_arg3, B_keeps_arg4,
    dst_v7, src_v6, proj_v4, src_v1, dst_v3, A_keeps_arg2, A_keeps_arg3, A_keeps_arg4]
  rfl

theorem keeps_arg0 (W : Valuation τ sig (Elt Ideal)) :
    after (ops (F := Ideal)) W (Proc.devRef .tc main_arg0) = W (Proc.devRef .tc main_arg0) := by
  simp only [ops]
  after_results
theorem keeps_arg1 (W : Valuation τ sig (Elt Ideal)) :
    after (ops (F := Ideal)) W (Proc.devRef .tc main_arg1) = W (Proc.devRef .tc main_arg1) := by
  simp only [ops]
  after_results
theorem keeps_arg2 (W : Valuation τ sig (Elt Ideal)) :
    after (ops (F := Ideal)) W (Proc.devRef .tc main_arg2) = W (Proc.devRef .tc main_arg2) := by
  simp only [ops]
  after_results
theorem keeps_arg3 (W : Valuation τ sig (Elt Ideal)) :
    after (ops (F := Ideal)) W (Proc.devRef .tc main_arg3) = W (Proc.devRef .tc main_arg3) := by
  simp only [ops]
  after_results
theorem keeps_arg4 (W : Valuation τ sig (Elt Ideal)) :
    after (ops (F := Ideal)) W (Proc.devRef .tc main_arg4) = W (Proc.devRef .tc main_arg4) := by
  simp only [ops]
  after_results
theorem keeps_arg5 (W : Valuation τ sig (Elt Ideal)) :
    after (ops (F := Ideal)) W (Proc.devRef .tc main_arg5) = W (Proc.devRef .tc main_arg5) := by
  simp only [ops]
  after_results

/-- Every weakly fair execution of the reference terminates, nothing faulting, with the result buffer at `value` of the
    launch contents and every argument array as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = value (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (result _),
      (h c main_arg0).trans (keeps_arg0 _), (h c main_arg1).trans (keeps_arg1 _), (h c main_arg2).trans (keeps_arg2 _),
      (h c main_arg3).trans (keeps_arg3 _), (h c main_arg4).trans (keeps_arg4 _), (h c main_arg5).trans (keeps_arg5 _)⟩)
    (run_seq scopedRefs_eq scopedSems_eq defs main (fun _ => ops) main_eq (fun _ => ops_sub) m ρ)

end Cert.ReferenceIdeal.Host

end
-- ==== Proof.LibHostRows.lean ====
/-
  General lemmas: the host's keepdims row reductions and scalar / column broadcasts of a matrix `[a, b]`, read at an
  index.

  * `broadcastInDim_scalar_apply`: a rank-0 array broadcast to any shape reads its one element everywhere;
  * `broadcastInDim_a_a1_apply`: a vector `[a]` made the column `[a, 1]` reads, at `(p, u)`, the vector at `p`;
  * `broadcastInDim_a1_ab_apply`: a column `[a, 1]` broadcast to `[a, b]` reads, at `(p, c)`, the column at `(p, 0)`;
  * `hostRowMax_apply`: at the ideal values the host's `reduce` with a `maximum` body over axis 1 of an `[a, b]` matrix
    is, at row `p`, the fold of `max` from the initial value over the row's entries;
  * `hostRowSum_apply`: the host's float sum over axis 1 is, at row `p`, the initial value plus the sum of the row's
    entries.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- A rank-0 array broadcast to any shape reads its one element everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun ax => ax.elim0)

/-- A vector `[a]` made the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` broadcast to `[a, b]` reads, at `(p, c)`, the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The reduced row index `p` with column `k` put back is `(p, k)`. -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- The host's `reduce` with a `maximum` body over the columns, at row `p`: the fold of `max` over the row from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- The host's float sum over the columns, at row `p`: the initial value plus the sum of the row. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) (Finset.sum_congr rfl fun k _ => ?_)
  exact congrArg x (lift_row h p k)

end Idealize.ShloMosaic.ValueIdx

end
-- ==== Proof.LibRowBroadcast.lean ====
/-
  Three layout operations read at an index: a vector `[a]` made a one-row matrix `[1, a]` by a broadcast along a new
  leading axis, a one-row matrix `[1, b]` repeated over `a` rows, and both at once `[a] → [1, a] → [n, a]`.
-/
import Idealize.ShloMosaic.Lib.Pipeline.Value
import Idealize.ShloMosaic.Lib.ValueIdx

namespace Cert.Lib

open Idealize.ShloMosaic Idealize.ShloMosaic.ValueIdx

variable {α : Type}

/-- A vector `[a]` broadcast to `[1, a]` along a new leading axis reads, at `(0, k)`, the vector at `k`. -/
theorem broadcastInDim_a_1a_apply {a : ℕ} (x : (⟨1, ![a]⟩ : Shape).Idx → α)
    (h : (⟨1, ![a]⟩ : Shape).BroadcastsInDim ⟨2, ![1, a]⟩ ![1]) (k : Fin a) :
    broadcastInDim ⟨2, ![1, a]⟩ ![1] h x (ix2 (0 : Fin 1) k) = x (ix1 k) := by
  refine broadcastInDim_apply _ h x (ix2 (0 : Fin 1) k) (ix1 k) fun ax => ?_
  match ax with
  | ⟨0, _⟩ =>
    show k.val = if a = 1 then 0 else k.val
    split
    · have := k.isLt; omega
    · rfl

/-- A one-row matrix `[1, b]` broadcast to `[a, b]` reads, at `(p, c)`, its one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.Lib
-- ==== Proof.RefDense.lean ====
/-
  The reference's dense stages are the mathematics of `Spec.lean`. At the ideal values the host's product is the plain
  sum over the contraction positions; a bias, made one row and broadcast over the rows, adds the bias of the entry's
  column; the rectifier is the maximum with the zero word; and jax's log-softmax — the row maximum folded from `-∞`
  and taken once more against `-∞` (a fold of `max` absorbs the value it starts from), the shifted logits, the
  logarithm of the row sum of their exponentials from the zero word — is `Gcn.biasLogSoftmax`. So the value the
  reference's result buffer ends at is `Gcn.model` of the six argument buffers.
-/
import proofs.«120204_j39230231281891_1_alg».proof.Proof.RefHost
import proofs.«120204_j39230231281891_1_alg».proof.Proof.Model
import proofs.«120204_j39230231281891_1_alg».proof.Proof.LibHostRows
import proofs.«120204_j39230231281891_1_alg».proof.Proof.LibLaneMax
import proofs.«120204_j39230231281891_1_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.ReferenceIdeal.Host

open Cert.ReferenceIdeal Cert.ReferenceIdeal.Gen
open Idealize.ShloMosaic Idealize.ShloMosaic.TcCoe Idealize.SL.Sem Idealize.ShloMosaic.StableHlo Idealize.ShloMosaic.ValueIdx

/-! ## The two products -/

theorem p1_lhs_row (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
theorem p1_lhs_col (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
theorem p1_rhs_row (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
theorem p1_rhs_col (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The host's first product is the sum over the 512 contraction positions. -/
theorem project1_eq (x : FVec Ideal S100000x512 .f32) (w : FVec Ideal S512x16 .f32) : hostProject1 x w = Gcn.project1 x w := by
  funext i
  unfold hostProject1 Gcn.project1
  simp only [Host.dotGeneral]
  rw [Ideal.dotGeneral_apply, ← Equiv.sum_comp (contrEquiv1 dot_S100000x512_S512x16_S100000x16_1_0_0_1_n_n 512 rfl rfl).symm]
  refine Finset.sum_congr rfl fun l _ => ?_
  have hl := contrEquiv1_symm_val dot_S100000x512_S512x16_S100000x16_1_0_0_1_n_n 512 rfl rfl l
  have el : dot_S100000x512_S512x16_S100000x16_1_0_0_1_n_n.lhsIdx i ((contrEquiv1 dot_S100000x512_S512x16_S100000x16_1_0_0_1_n_n 512 rfl rfl).symm l) = ix2 (i 0) l := funext fun a => Fin.ext (by
    match a with
    | ⟨0, _⟩ => exact p1_lhs_row _ _
    | ⟨1, _⟩ => exact (p1_lhs_col _ _).trans hl)
  have er : dot_S100000x512_S512x16_S100000x16_1_0_0_1_n_n.rhsIdx i ((contrEquiv1 dot_S100000x512_S512x16_S100000x16_1_0_0_1_n_n 512 rfl rfl).symm l) = ix2 l (i 1) := funext fun a => Fin.ext (by
    match a with
    | ⟨0, _⟩ => exact (p1_rhs_row _ _).trans hl
    | ⟨1, _⟩ => exact p1_rhs_col _ _)
  rw [el, er]
  rfl

theorem p2_lhs_row (i : S100000x40.Idx) (q : dot_S100000x16_S16x40_S100000x40_1_0_0_1_n_n.contr.Idx) : (dot_S100000x16_S16x40_S100000x40_1_0_0_1_n_n.lhsIdx i q 0).val = (i 0).val := by
  unfold DotDims.lhsIdx
  rw [dif_neg (show ¬(0 : Fin S100000x16.rank) ∈ dot_S100000x16_S16x40_S100000x40_1_0_0_1_n_n.lhsBatch by decide), dif_pos (show (0 : Fin S100000x16.rank) ∈ dot_S100000x16_S16x40_S100000x40_1_0_0_1_n_n.lhsNonContracting by decide)]
  rfl
theorem p2_lhs_col (i : S100000x40.Idx) (q : dot_S100000x16_S16x40_S100000x40_1_0_0_1_n_n.contr.Idx) : (dot_S100000x16_S16x40_S100000x40_1_0_0_1_n_n.lhsIdx i q 1).val = (q ⟨0, by decide⟩).val :=
  dot_S100000x16_S16x40_S100000x40_1_0_0_1_n_n.lhsIdx_val_of_single rfl i q
theorem p2_rhs_row (i : S100000x40.Idx) (q : dot_S100000x16_S16x40_S100000x40_1_0_0_1_n_n.contr.Idx) : (dot_S100000x16_S16x40_S100000x40_1_0_0_1_n_n.rhsIdx i q 0).val = (q ⟨0, by decide⟩).val :=
  dot_S100000x16_S16x40_S100000x40_1_0_0_1_n_n.rhsIdx_val_of_single rfl i q
theorem p2_rhs_col (i : S100000x40.Idx) (q : dot_S100000x16_S16x40_S100000x40_1_0_0_1_n_n.contr.Idx) : (dot_S100000x16_S16x40_S100000x40_1_0_0_1_n_n.rhsIdx i q 1).val = (i 1).val := by
  unfold DotDims.rhsIdx
  rw [dif_neg (show ¬(1 : Fin S16x40.rank) ∈ dot_S100000x16_S16x40_S100000x40_1_0_0_1_n_n.rhsBatch by decide), dif_pos (show (1 : Fin S16x40.rank) ∈ dot_S100000x16_S16x40_S100000x40_1_0_0_1_n_n.rhsNonContracting by decide)]
  rfl

/-- The host's second product is the sum over the 16 contraction positions. -/
theorem project2_eq (x : FVec Ideal S100000x16 .f32) (w : FVec Ideal S16x40 .f32) : hostProject2 x w = Gcn.project2 x w := by
  funext i
  unfold hostProject2 Gcn.project2
  simp only [Host.dotGeneral]
  rw [Ideal.dotGeneral_apply, ← Equiv.sum_comp (contrEquiv1 dot_S100000x16_S16x40_S100000x40_1_0_0_1_n_n 16 rfl rfl).symm]
  refine Finset.sum_congr rfl fun l _ => ?_
  have hl := contrEquiv1_symm_val dot_S100000x16_S16x40_S100000x40_1_0_0_1_n_n 16 rfl rfl l
  have el : dot_S100000x16_S16x40_S100000x40_1_0_0_1_n_n.lhsIdx i ((contrEquiv1 dot_S100000x16_S16x40_S100000x40_1_0_0_1_n_n 16 rfl rfl).symm l) = ix2 (i 0) l := funext fun a => Fin.ext (by
    match a with
    | ⟨0, _⟩ => exact p2_lhs_row _ _
    | ⟨1, _⟩ => exact (p2_lhs_col _ _).trans hl)
  have er : dot_S100000x16_S16x40_S100000x40_1_0_0_1_n_n.rhsIdx i ((contrEquiv1 dot_S100000x16_S16x40_S100000x40_1_0_0_1_n_n 16 rfl rfl).symm l) = ix2 l (i 1) := funext fun a => Fin.ext (by
    match a with
    | ⟨0, _⟩ => exact (p2_rhs_row _ _).trans hl
    | ⟨1, _⟩ => exact p2_rhs_col _ _)
  rw [el, er]
  rfl

/-! ## Bias and rectifier -/

/-- A bias made one row and broadcast over the rows reads, at (p, q), the bias of column q. -/
theorem bias16_apply (b : FVec Ideal S16 .f32) (p : Fin 100000) (q : Fin 16) : hostBias16 b (ix2 p q) = b (ix1 q) := by
  unfold hostBias16
  rw [Cert.Lib.broadcastInDim_1b_ab_apply, Cert.Lib.broadcastInDim_a_1a_apply]
theorem bias40_apply (b : FVec Ideal S40 .f32) (p : Fin 100000) (q : Fin 40) : hostBias40 b (ix2 p q) = b (ix1 q) := by
  unfold hostBias40
  rw [Cert.Lib.broadcastInDim_1b_ab_apply, Cert.Lib.broadcastInDim_a_1a_apply]

/-- The reference's biased rectifier is `Gcn.biasRelu`. -/
theorem biasRelu_eq (A : FVec Ideal S100000x16 .f32) (b : FVec Ideal S16 .f32) :
    hostRelu (addf A (hostBias16 b)) = Gcn.biasRelu A b := by
  funext i
  obtain ⟨p, q, rfl⟩ : ∃ (p : Fin 100000) (q : Fin 16), i = ix2 p q := ⟨i 0, i 1, eq_ix2 i⟩
  unfold hostRelu Gcn.biasRelu
  show max (A (ix2 p q) + hostBias16 b (ix2 p q)) (broadcastInDim S100000x16 ![] bcast_S_S100000x16 (constant (F := Ideal) S_ .f32 0x00000000#32) (ix2 p q)) = _
  rw [bias16_apply, broadcastInDim_scalar_apply]
  rfl

/-! ## Bias and log-softmax -/

/-- The host's exponential and logarithm act entry by entry. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The reference's row maximum at row p: the fold of `max` over the row from the word of `-∞`. -/
theorem rowMax_apply (z : FVec Ideal S100000x40 .f32) (p : Fin 100000) :
    hostRowMax z (ix1 p) = Gcn.rowMax (fun k => z (ix2 p k)) := by
  unfold hostRowMax Gcn.rowMax
  rw [maximumf_apply, broadcastInDim_scalar_apply, hostRowMax_apply z _ reducesTo_S100000x40_S100000_d1 (by decide) h_S_ p]
  exact fold_max_absorb _ _ _

/-- The shifted logits at (p, q). -/
theorem shifted_apply (z : FVec Ideal S100000x40 .f32) (p : Fin 100000) (q : Fin 40) :
    hostShifted z (ix2 p q) = z (ix2 p q) - Gcn.rowMax (fun k => z (ix2 p k)) := by
  unfold hostShifted
  rw [subf_apply, broadcastInDim_a1_ab_apply, broadcastInDim_a_a1_apply, rowMax_apply]

/-- The reference's log-softmax at (p, q), over any logits `z`. -/
theorem logSoftmax_apply (z : FVec Ideal S100000x40 .f32) (p : Fin 100000) (q : Fin 40) :
    hostLogSoftmax z (ix2 p q) = (z (ix2 p q) - Gcn.rowMax (fun k => z (ix2 p k)))
      - Ideal.log (∑ k : Fin 40, Ideal.exp (z (ix2 p k) - Gcn.rowMax (fun k => z (ix2 p k)))) := by
  unfold hostLogSoftmax
  rw [subf_apply, shifted_apply, broadcastInDim_a1_ab_apply, hostLog_apply, broadcastInDim_a_a1_apply,
    hostRowSum_apply _ _ reducesTo_S100000x40_S100000_d1 (by decide) h_S_ p, constant_apply, Ideal.ofBits_zero_f32, zero_add]
  simp only [hostExp_apply, shifted_apply]

/-- The reference's biased log-softmax is `Gcn.biasLogSoftmax`. -/
theorem biasLogSoftmax_eq (A : FVec Ideal S100000x40 .f32) (b : FVec Ideal S40 .f32) :
    hostLogSoftmax (addf A (hostBias40 b)) = Gcn.biasLogSoftmax A b := by
  funext i
  obtain ⟨p, q, rfl⟩ : ∃ (p : Fin 100000) (q : Fin 40), i = ix2 p q := ⟨i 0, i 1, eq_ix2 i⟩
  rw [logSoftmax_apply]
  have hz : ∀ (r : Fin 100000) (k : Fin 40), (addf A (hostBias40 b) : FVec Ideal S100000x40 .f32) (ix2 r k) = A (ix2 r k) + b (ix1 k) := fun r k => by
    show A (ix2 r k) + hostBias40 b (ix2 r k) = _
    rw [bias40_apply]
  simp only [hz]
  rfl

/-! ## The reference's value is the model -/

theorem value_eq (W : Valuation τ sig (Elt Ideal)) :
    value W = Gcn.model (W (Proc.devRef .tc main_arg0)) (W (Proc.devRef .tc main_arg1)) (W (Proc.devRef .tc main_arg2)) (W (Proc.devRef .tc main_arg3)) (W (Proc.devRef .tc main_arg4)) (W (Proc.devRef .tc main_arg5)) := by
  unfold value Gcn.model
  rw [project1_eq, biasRelu_eq, project2_eq, biasLogSoftmax_eq]

end Cert.ReferenceIdeal.Host

end
-- ==== Proof.lean ====
/-
  A two-layer graph convolution with a log-softmax head, on 100000 nodes and 3200000 directed edges, against its jnp
  reference, over the extended reals.

  Both programs compute, from the edge table, the lists of sources and destinations followed by the self loops, each
  node's degree, its inverse square root where positive, and for each edge the product of that factor at its two ends;
  and, per layer, the sum into each node over its incoming edges of the edge's factor times the source's projected
  feature row. They do so by the same host operations (a scatter-add, gathers, products), which are never opened here
  (Proof/Graph.lean). They differ in the dense stages around them. The kernel runs four pipelined regions: the
  [100000, 512] features times the [512, 16] weights in twenty row blocks; bias and rectifier in five; the
  [100000, 16] hidden features times the [16, 40] weights in twenty; bias and the logarithm of the row softmax in ten.
  The reference takes the two products as host products, adds each bias broadcast over the rows, and spells the
  log-softmax as jax does, the row maximum taken once more against -∞. At the ideal values every one of these is the
  same function of its operands, index by index (Proof/Spec.lean): a product into a zero accumulator and a host product
  are the plain sum over the contraction positions; a row of the softmax lies inside one block; a fold of max absorbs
  the value it starts from. No law used needs finiteness, so the precondition is never opened.

  The kernel's frames are the generated ones. Its run is read once more at the result buffer (Proof/RunValue.lean) and
  the contents followed through the stretches and regions to `Gcn.model` of the six arguments (Proof/KernelValue.lean,
  over the four region modules and Proof/KernelHost.lean); the reference's run is read back stretch by stretch to the
  same function (Proof/RefHost.lean, Proof/RefDense.lean). The idealization rewrote nothing, so `preserves` is trivial.
-/
import proofs.«120204_j39230231281891_1_alg».proof.Defs
import proofs.«120204_j39230231281891_1_alg».proof.Proof.Gen.Kernel
import proofs.«120204_j39230231281891_1_alg».proof.Proof.Gen.Kernel.Skeleton
import proofs.«120204_j39230231281891_1_alg».proof.Proof.Gen.Kernel.Launch
import proofs.«120204_j39230231281891_1_alg».proof.Proof.Gen.Kernel.Points
import proofs.«120204_j39230231281891_1_alg».proof.Proof.Gen.Kernel.Frame
import proofs.«120204_j39230231281891_1_alg».proof.Proof.Gen.KernelIdeal
import proofs.«120204_j39230231281891_1_alg».proof.Proof.Gen.KernelIdeal.Skeleton
import proofs.«120204_j39230231281891_1_alg».proof.Proof.Gen.KernelIdeal.Launch
import proofs.«120204_j39230231281891_1_alg».proof.Proof.Gen.KernelIdeal.Points
import proofs.«120204_j39230231281891_1_alg».proof.Proof.Gen.KernelIdeal.Frame
import proofs.«120204_j39230231281891_1_alg».proof.Proof.Gen.ReferenceIdeal
import proofs.«120204_j39230231281891_1_alg».proof.Proof.Gen.Pre_finite_inputs
import proofs.«120204_j39230231281891_1_alg».proof.Proof.RunValue
import proofs.«120204_j39230231281891_1_alg».proof.Proof.KernelValue
import proofs.«120204_j39230231281891_1_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Host.run m ρ)

theorem preserves : Cert.preserves_Kernel_KernelIdeal := trivial

/-- From memories agreeing on the arguments both programs end with the result array at `Gcn.model` of the arguments. -/
theorem algebraic : Cert.algebraic_KernelIdeal_ReferenceIdeal := by
  intro m ρ m' ρ' _ hagree
  refine ⟨fun c => Cert.Gcn.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Network.result m ρ c), (h c).2⟩)
      (Cert.KernelIdeal.RunValue.run_final m ρ)
  · refine (θ_run Cert.ReferenceIdeal.defs _ _).mono (fun r h c => ⟨(h c).1.trans ?_, (h c).2⟩)
      (Cert.ReferenceIdeal.Host.run m' ρ')
    rw [Cert.ReferenceIdeal.Host.value_eq]
    show Cert.Gcn.model
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
